-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S64x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S100000x64 : Shape := ⟨2, ![100000, 64]⟩
abbrev S10000x64 : Shape := ⟨2, ![10000, 64]⟩
abbrev S1x128 : Shape := ⟨2, ![1, 128]⟩
abbrev S1700000x64 : Shape := ⟨2, ![1700000, 64]⟩
abbrev S100000x16 : Shape := ⟨2, ![100000, 16]⟩
abbrev S5000x64 : Shape := ⟨2, ![5000, 64]⟩
abbrev S5000x16 : Shape := ⟨2, ![5000, 16]⟩
abbrev S1x64 : Shape := ⟨2, ![1, 64]⟩
abbrev S1x16 : Shape := ⟨2, ![1, 16]⟩
abbrev S5000 : Shape := ⟨1, ![5000]⟩
abbrev S5000x1 : Shape := ⟨2, ![5000, 1]⟩

abbrev nBuf : Space → Nat
  | .hbm => 81
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .bf16⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S100000x64, .bf16⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .bf16⟩
  | .hbm, ⟨72, _⟩ => ⟨S1700000x64, .f32⟩
  | .hbm, ⟨73, _⟩ => ⟨S1700000x1, .f32⟩
  | .hbm, ⟨74, _⟩ => ⟨S1700000x64, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S128x64, .f32⟩
  | .local _ .vmem, ⟨9, _⟩ => ⟨S10000x64, .bf16⟩
  | .local _ .vmem, ⟨10, _⟩ => ⟨S10000x64, .bf16⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S64x16, .f32⟩
  | .local _ .vmem, ⟨15, _⟩ => ⟨S16, .f32⟩
  | .local _ .vmem, ⟨16, _⟩ => ⟨S5000x16, .f32⟩
  | .local _ .vmem, ⟨17, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16.size a ≤ S16.size a
  hwx2_3 : ∀ i : grid2.Coords, EltTy.bits .f32 = 32 ∨ (Rect.block (s := S16) S16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S100000x16.size a
  hwx2_4 : ∀ i : grid2.Coords, EltTy.bits .f32 = 32 ∨ (Rect.block (s := S100000x16) S5000x16.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S64x16, .f32⟩
  | 7 => ⟨S16, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x64, .f32⟩
  | 68 => ⟨S100000, .i32⟩
  | 69 => ⟨S1700000, .i32⟩
  | 70 => ⟨S1700000, .i32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x1, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x16, .f32⟩
  | 123 => ⟨S1x16, .f32⟩
  | 124 => ⟨S100000x16, .f32⟩
  | 125 => ⟨S100000x16, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x16, .f32⟩
  | 5 => ⟨S100000x16, .f32⟩
  | 6 => ⟨S100000x16, .f32⟩
  | 7 => ⟨S_, .f32⟩
  | 8 => ⟨S100000, .f32⟩
  | 9 => ⟨S100000x1, .f32⟩
  | 10 => ⟨S100000x1, .f32⟩
  | 11 => ⟨S100000x16, .f32⟩
  | 12 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_call1_cst : Ref sig .tc := ⟨.hbm, 119, rfl⟩
abbrev main_call1_v0 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_call2_cst : Ref sig .tc := ⟨.hbm, 126, rfl⟩
abbrev main_call2_v0 : Ref sig .tc := ⟨.hbm, 127, rfl⟩
abbrev main_call2_cst_0 : Ref sig .tc := ⟨.hbm, 128, rfl⟩
abbrev main_call2_v1 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_cst_1 : Ref sig .tc := ⟨.hbm, 135, rfl⟩
abbrev main_call2_v7 : Ref sig .tc := ⟨.hbm, 136, rfl⟩
abbrev main_call2_v8 : Ref sig .tc := ⟨.hbm, 137, rfl⟩
abbrev main_call2_v9 : Ref sig .tc := ⟨.hbm, 138, rfl⟩
abbrev main_call2_v10 : Ref sig .tc := ⟨.hbm, 139, rfl⟩
abbrev main_v94 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«127195_j27814208209785_2_alg».proof.Proof.LibDotIdx
import proofs.«127195_j27814208209785_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.RefCuts.lean ====
/-
  The reference network, cut at the three places where the kernel's program hands an array from a host stretch to a
  dense stage or back.

  The reference is two graph-convolution layers and a classifier. With `s`, `d` the source and target node of every
  edge (the given edges followed by one self loop per node) and `nrm e` the symmetric weight of edge `e`, a layer
  takes node features `h` to `agg h`: the rows `h[s e] · nrm e` summed into row `d e`. The dense stages between
  are `x ↦ x · W₁`, then `c ↦ relu (c + b₁) · W₂`, then `c ↦ logSoftmax (relu (c + b₂) · W_fc + b_fc)` row by row.
  Here each piece is a function of the array it receives (so that the kernel's arrays can be put in its place), the
  reference's own stages are shown to be these pieces composed (by unfolding), and each dense piece is read at an index
  as a plain formula of one row of its input: `reluDot` and `logSoftmaxAt` below.
-/
import proofs.«127195_j27814208209785_2_alg».proof.Proof.RefReadP
import proofs.«127195_j27814208209785_2_alg».proof.Proof.LibRowOps

noncomputable section

namespace Cert.Gcn

open Cert.ReferenceIdeal Cert.ReferenceIdeal.Gen Cert.ReferenceIdeal.ReadP Idealize.ShloMosaic Idealize.ShloMosaic.ValueIdx

/-! ## The two row formulas -/

/-- One entry of `relu (row + b) · W`: the sum over `k` of `max (row k + b k) 0 · col k` (the zero kept as the word the
    programs spell it with). -/
def reluDot {K : Nat} (row b col : Fin K → EReal) : EReal :=
  ∑ k : Fin K, max (row k + b k) (Ideal.ofBits .f32 0x00000000#32) * col k

/-- The largest entry of a row, as a fold of `max` from the word for minus infinity. -/
def rowMax {N : Nat} (L : Fin N → EReal) : EReal :=
  (Finset.univ : Finset (Fin N)).fold max (Ideal.ofBits .f32 0xFF800000#32) L

/-- Entry `j` of the log-softmax of a row `L`: `(L j − max L) − log (∑ exp (L j' − max L))`. -/
def logSoftmaxAt {N : Nat} (L : Fin N → EReal) (j : Fin N) : EReal :=
  (L j - rowMax L) - Ideal.log (∑ j' : Fin N, Ideal.exp (L j' - rowMax L))

/-! ## The aggregation over the edges, as a function of the node features and of the graph quantities -/

/-- Layer 1's aggregation of 128-wide node features `h` over the edges `(s, d)` with weights `nrm`. -/
def agg128 (h : FVec Ideal S100000x128 .f32) (s d : IVec S1700000 32) (nrm : FVec Ideal S1700000 .f32) :
    FVec Ideal S100000x128 .f32 :=
  Host.scatterAdd (F := Ideal) scatter_S100000x128_S1700000x1_S1700000x128_1_0_0_1 (val_main_v40 (F := Ideal))
    (broadcastInDim S1700000x1 ![0] bcast_S1700000_S1700000x1_0 d)
    (mulf (Host.gather gather_S100000x128_S1700000x1_S1700000x128_1_0_n_n_0_1_1128 h
        (broadcastInDim S1700000x1 ![0] bcast_S1700000_S1700000x1_0
          (select (cmpi .slt s (val_main_v30 (F := Ideal))) (addi s (val_main_v32 (F := Ideal))) s)))
      (broadcastInDim S1700000x128 ![0, 1] bcast_S1700000x1_S1700000x128_0_1
        (broadcastInDim S1700000x1 ![0] bcast_S1700000_S1700000x1_0 nrm)))

/-- Layer 2's aggregation of 64-wide node features. -/
def agg64 (h : FVec Ideal S100000x64 .f32) (s d : IVec S1700000 32) (nrm : FVec Ideal S1700000 .f32) :
    FVec Ideal S100000x64 .f32 :=
  Host.scatterAdd (F := Ideal) scatter_S100000x64_S1700000x1_S1700000x64_1_0_0_1 (val_main_v83 (F := Ideal))
    (broadcastInDim S1700000x1 ![0] bcast_S1700000_S1700000x1_0 d)
    (mulf (Host.gather gather_S100000x64_S1700000x1_S1700000x64_1_0_n_n_0_1_164 h
        (broadcastInDim S1700000x1 ![0] bcast_S1700000_S1700000x1_0
          (select (cmpi .slt s (val_main_v73 (F := Ideal))) (addi s (val_main_v75 (F := Ideal))) s)))
      (broadcastInDim S1700000x64 ![0, 1] bcast_S1700000x1_S1700000x64_0_1
        (broadcastInDim S1700000x1 ![0] bcast_S1700000_S1700000x1_0 nrm)))

/-! ## The dense stages, as functions of the array they receive -/

/-- `relu (c + b₁) · W₂`. -/
def dense2 (cv : FVec Ideal S100000x128 .f32) (x3 : FVec Ideal S128 .f32) (x4 : FVec Ideal S128x64 .f32) : FVec Ideal S100000x64 .f32 :=
  Host.dotGeneral (F := Ideal) dot_S100000x128_S128x64_S100000x64_1_0_0_1_n_n none
    (maximumf (addf cv (val_main_v44 (F := Ideal) x3)) (val_main_call0_v0 (F := Ideal))) x4

/-- The class scores `relu (c + b₂) · W_fc + b_fc`. -/
def scores (cv : FVec Ideal S100000x64 .f32) (x5 : FVec Ideal S64 .f32) (x6 : FVec Ideal S64x16 .f32) (x7 : FVec Ideal S16 .f32) :
    FVec Ideal S100000x16 .f32 :=
  addf (Host.dotGeneral (F := Ideal) dot_S100000x64_S64x16_S100000x16_1_0_0_1_n_n none
      (maximumf (addf cv (val_main_v87 (F := Ideal) x5)) (val_main_call1_v0 (F := Ideal))) x6)
    (val_main_v92 (F := Ideal) x7)

/-- The scores of a row less the row's maximum. -/
def shifted (L : FVec Ideal S100000x16 .f32) : FVec Ideal S100000x16 .f32 :=
  subf L (broadcastInDim S100000x16 ![0, 1] bcast_S100000x1_S100000x16_0_1
    (broadcastInDim S100000x1 ![0] bcast_S100000_S100000x1_0
      (maximumf (val_main_call2_v1 (F := Ideal))
        (Host.reduce FloatOps.maximumf L (val_main_call2_cst (F := Ideal)) reducesTo_S100000x16_S100000_d1 h_S_))))

/-- The log-softmax of every row. -/
def logSoftmax (L : FVec Ideal S100000x16 .f32) : FVec Ideal S100000x16 .f32 :=
  subf (shifted L) (broadcastInDim S100000x16 ![0, 1] bcast_S100000x1_S100000x16_0_1
    (Host.log (broadcastInDim S100000x1 ![0] bcast_S100000_S100000x1_0
      (Host.reduceAdd (Host.exp (shifted L)) (val_main_call2_cst_1 (F := Ideal)) reducesTo_S100000x16_S100000_d1 h_S_))))

/-! ## The reference's stages are these pieces composed -/

theorem val_main_v42_cut (x0 : FVec Ideal S100000x128 .f32) (x1 : IVec S2x1600000 32) (x2 : FVec Ideal S128x128 .f32) :
    val_main_v42 (F := Ideal) x0 x1 x2
      = agg128 (val_main_v4 (F := Ideal) x0 x2) (val_main_v6 (F := Ideal) x1) (val_main_v7 (F := Ideal) x1) (val_main_v29 (F := Ideal) x1) := rfl

theorem val_main_v47_cut (x0 : FVec Ideal S100000x128 .f32) (x1 : IVec S2x1600000 32) (x2 : FVec Ideal S128x128 .f32)
    (x3 : FVec Ideal S128 .f32) (x4 : FVec Ideal S128x64 .f32) :
    val_main_v47 (F := Ideal) x0 x1 x2 x3 x4 = dense2 (val_main_v42 (F := Ideal) x0 x1 x2) x3 x4 := rfl

theorem val_main_v85_cut (x0 : FVec Ideal S100000x128 .f32) (x1 : IVec S2x1600000 32) (x2 : FVec Ideal S128x128 .f32)
    (x3 : FVec Ideal S128 .f32) (x4 : FVec Ideal S128x64 .f32) :
    val_main_v85 (F := Ideal) x0 x1 x2 x3 x4
      = agg64 (val_main_v47 (F := Ideal) x0 x1 x2 x3 x4) (val_main_v6 (F := Ideal) x1) (val_main_v7 (F := Ideal) x1) (val_main_v29 (F := Ideal) x1) := rfl

theorem val_main_v94_cut (x0 : FVec Ideal S100000x128 .f32) (x1 : IVec S2x1600000 32) (x2 : FVec Ideal S128x128 .f32)
    (x3 : FVec Ideal S128 .f32) (x4 : FVec Ideal S128x64 .f32) (x5 : FVec Ideal S64 .f32) (x6 : FVec Ideal S64x16 .f32) (x7 : FVec Ideal S16 .f32) :
    val_main_v94 (F := Ideal) x0 x1 x2 x3 x4 x5 x6 x7
      = logSoftmax (scores (val_main_v85 (F := Ideal) x0 x1 x2 x3 x4) x5 x6 x7) := rfl

/-- The whole reference: three dense stages with the two aggregations between them. -/
theorem val_main_v94_eq_net (x0 : FVec Ideal S100000x128 .f32) (x1 : IVec S2x1600000 32) (x2 : FVec Ideal S128x128 .f32)
    (x3 : FVec Ideal S128 .f32) (x4 : FVec Ideal S128x64 .f32) (x5 : FVec Ideal S64 .f32) (x6 : FVec Ideal S64x16 .f32) (x7 : FVec Ideal S16 .f32) :
    val_main_v94 (F := Ideal) x0 x1 x2 x3 x4 x5 x6 x7
      = logSoftmax (scores (agg64 (dense2 (agg128 (val_main_v4 (F := Ideal) x0 x2) (val_main_v6 (F := Ideal) x1)
            (val_main_v7 (F := Ideal) x1) (val_main_v29 (F := Ideal) x1)) x3 x4)
          (val_main_v6 (F := Ideal) x1) (val_main_v7 (F := Ideal) x1) (val_main_v29 (F := Ideal) x1)) x5 x6 x7) := by
  rw [val_main_v94_cut, val_main_v85_cut, val_main_v47_cut, val_main_v42_cut]

/-! ## The dense pieces read at an index -/

/-- `x · W₁` at `i`: row `i 0` of `x` against column `i 1` of `W₁`. -/
theorem dense1_apply (x0 : FVec Ideal S100000x128 .f32) (x2 : FVec Ideal S128x128 .f32) (i : S100000x128.Idx) :
    val_main_v4 (F := Ideal) x0 x2 i = ∑ k : Fin 128, x0 (ix2 (i 0) k) * x2 (ix2 k (i 1)) := by
  rw [eq_ix2 i]
  exact Cert.LibRowOps.dotGeneral_plain_apply _ none x0 x2 (i 0) (i 1)

/-- `relu (c + b₁) · W₂` at `i`. -/
theorem dense2_apply (cv : FVec Ideal S100000x128 .f32) (x3 : FVec Ideal S128 .f32) (x4 : FVec Ideal S128x64 .f32) (i : S100000x64.Idx) :
    dense2 cv x3 x4 i = reluDot (fun k : Fin 128 => cv (ix2 (i 0) k)) (fun k => x3 (ix1 k)) (fun k => x4 (ix2 k (i 1))) := by
  rw [eq_ix2 i]
  unfold dense2 reluDot
  refine (Cert.LibRowOps.dotGeneral_plain_apply _ none _ x4 (i 0) (i 1)).trans ?_
  refine Finset.sum_congr rfl fun k _ => ?_
  show max (cv (ix2 (i 0) k) + val_main_v44 (F := Ideal) x3 (ix2 (i 0) k)) (val_main_call0_v0 (F := Ideal) (ix2 (i 0) k)) * _ = _
  have e1 : val_main_v44 (F := Ideal) x3 (ix2 (i 0) k) = x3 (ix1 k) := by
    unfold val_main_v44 val_main_v43
    exact Cert.LibRowOps.rowVec_host_apply x3 _ _ (i 0) k
  rw [e1]
  rfl

/-- The class scores at `i`. -/
theorem scores_apply (cv : FVec Ideal S100000x64 .f32) (x5 : FVec Ideal S64 .f32) (x6 : FVec Ideal S64x16 .f32) (x7 : FVec Ideal S16 .f32)
    (i : S100000x16.Idx) :
    scores cv x5 x6 x7 i
      = reluDot (fun k : Fin 64 => cv (ix2 (i 0) k)) (fun k => x5 (ix1 k)) (fun k => x6 (ix2 k (i 1))) + x7 (ix1 (i 1)) := by
  rw [eq_ix2 i]
  unfold scores reluDot
  show Host.dotGeneral (F := Ideal) _ none _ x6 (ix2 (i 0) (i 1)) + val_main_v92 (F := Ideal) x7 (ix2 (i 0) (i 1)) = _
  have e2 : val_main_v92 (F := Ideal) x7 (ix2 (i 0) (i 1)) = x7 (ix1 (i 1)) := by
    unfold val_main_v92 val_main_v91
    exact Cert.LibRowOps.rowVec_host_apply x7 _ _ (i 0) (i 1)
  rw [e2]
  refine congrArg (· + _) ?_
  refine (Cert.LibRowOps.dotGeneral_plain_apply _ none _ x6 (i 0) (i 1)).trans ?_
  refine Finset.sum_congr rfl fun k _ => ?_
  show max (cv (ix2 (i 0) k) + val_main_v87 (F := Ideal) x5 (ix2 (i 0) k)) (val_main_call1_v0 (F := Ideal) (ix2 (i 0) k)) * _ = _
  have e1 : val_main_v87 (F := Ideal) x5 (ix2 (i 0) k) = x5 (ix1 k) := by
    unfold val_main_v87 val_main_v86
    exact Cert.LibRowOps.rowVec_host_apply x5 _ _ (i 0) k
  rw [e1]
  rfl

/-- The word for minus infinity is the least extended real, so taking the maximum with it changes nothing. -/
theorem max_negInf (y : EReal) : max (Ideal.ofBits .f32 0xFF800000#32) y = y := by
  rw [Cert.SupCon.Ker.ofBits_negInf]; exact max_bot_left y

/-- The shifted scores at `i`: the entry less its row's maximum. -/
theorem shifted_apply (L : FVec Ideal S100000x16 .f32) (i : S100000x16.Idx) :
    shifted L i = L i - rowMax (fun j : Fin 16 => L (ix2 (i 0) j)) := by
  obtain ⟨p, q, rfl⟩ : ∃ (p : Fin 100000) (q : Fin 16), i = ix2 p q := ⟨i 0, i 1, eq_ix2 i⟩
  unfold shifted
  rw [subf_apply, Cert.LibRowOps.colVec_host_apply, maximumf_apply,
    Cert.LibRowOps.rowMax_host_apply L _ reducesTo_S100000x16_S100000_d1 (by decide) h_S_ p]
  have ev : val_main_call2_v1 (F := Ideal) (ix1 p) = Ideal.ofBits .f32 0xFF800000#32 := rfl
  rw [ev, max_negInf]
  rfl

/-- The log-softmax at `i`: `logSoftmaxAt` of row `i 0`. -/
theorem logSoftmax_apply (L : FVec Ideal S100000x16 .f32) (i : S100000x16.Idx) :
    logSoftmax L i = logSoftmaxAt (fun j : Fin 16 => L (ix2 (i 0) j)) (i 1) := by
  obtain ⟨p, q, rfl⟩ : ∃ (p : Fin 100000) (q : Fin 16), i = ix2 p q := ⟨i 0, i 1, eq_ix2 i⟩
  have hs : ∀ j : Fin 16, shifted L (ix2 p j) = L (ix2 p j) - rowMax (fun j : Fin 16 => L (ix2 p j)) :=
    fun j => shifted_apply L (ix2 p j)
  unfold logSoftmax logSoftmaxAt
  rw [subf_apply, hs q, Cert.LibRowOps.colBcast_host_apply, Cert.LibRowOps.hostLog_apply, Cert.LibRowOps.col1_host_apply,
    Cert.LibRowOps.rowSum_host_apply _ _ reducesTo_S100000x16_S100000_d1 (by decide) h_S_ p]
  have e0 : val_main_call2_cst_1 (F := Ideal) (Shape.Idx.first h_S_) = 0 := Ideal.ofBits_zero_f32
  rw [e0, zero_add]
  refine congrArg (fun y => _ - Ideal.log y) (Finset.sum_congr rfl fun j _ => ?_)
  rw [Cert.LibRowOps.hostExp_apply, hs j]

end Cert.Gcn

end
-- ==== Proof.LibConcat.lean ====
/-
  Two general tools for reading a fold of host operations when one of them is a concatenation.

  The host's concatenation takes a LIST of arrays, each paired with its shape, and its side condition (the shapes fit
  together along the axis) is stated about that list; so the list cannot be rewritten in place, and a fold of operations
  standing inside it is never read. For two arrays, `cat2` is the same concatenation as a function of the two arrays
  with the shapes fixed first, `concatenate_pair` says so, and the tactic `fold_results` reads a fold of nullary to
  ternary host operations at a buffer — each operation's result at its own buffer is its function of its operands, at
  any other buffer what was there — going through two-array concatenations by that equation.
-/
import Idealize.ShloMosaic.Lib.StableHlo.Run

noncomputable section

namespace Cert.LibConcat

open Idealize.ShloMosaic Idealize.ShloMosaic.StableHlo

variable {α : Type}

/-- The concatenation of two arrays along axis `a`, as a function of the two arrays. -/
def cat2 (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The host's concatenation of a two-element list is `cat2` of its two arrays. -/
theorem concatenate_pair (t : Shape) (a : Fin t.rank) (s1 s2 : Shape) (x : s1.Idx → α) (y : s2.Idx → α)
    (h : Shape.Concatenates (List.map (Sigma.fst (β := fun s : Shape => s.Idx → α)) [⟨s1, x⟩, ⟨s2, y⟩]) t a) :
    concatenate t a [⟨s1, x⟩, ⟨s2, y⟩] h = cat2 t a s1 s2 h x y := rfl

/-- Reads a fold of host operations at a buffer, in one simplification pass, through two-array concatenations. -/
macro "fold_results" : tactic =>
  `(tactic| (simp (disch := decide) only [after_cons, after_nil,
      nullary_result', unary_result', binary_result', ternary_result',
      nullary_result_ne', unary_result_ne', binary_result_ne', ternary_result_ne', concatenate_pair]))

end Cert.LibConcat

end
-- ==== Proof.FoldAll.lean ====
/-
  One tactic: a fold of host operations read at one buffer in a single simplification pass.
-/
import Idealize.ShloMosaic.Lib.StableHlo.Run
import proofs.«127195_j27814208209785_2_alg».proof.Proof.LibConcat

namespace Cert.Gcn

open Idealize.ShloMosaic Idealize.ShloMosaic.StableHlo Cert.LibConcat

/-- Reads a fold of host operations at one buffer in one pass: each operation's result at its own buffer is its function
    of its operands, at any other buffer what was there; two-array concatenations are entered. -/
macro "fold_all" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibConcat.concatenate_pair]))

end Cert.Gcn
-- ==== Proof.RefRun.lean ====
/-
  The reference's run, read stretch by stretch.

  The reference's @main is one line of 133 host operations. Cut after the operations that write the first dense product
  and the graph quantities, the first aggregation, the second dense stage, the graph quantities again, the second
  aggregation, it is seven stretches (the classifier's scores and their log-softmax apart); each is read at the buffers the next one takes — a dense stage or an aggregation of
  the buffers it found, the reference's own stage by unfolding — and what a stretch leaves alone is said too. Composed
  from the launch memory, the result buffer ends at `val_main_v94` of the arguments; `run` is the library's run of a
  line of host operations with that reading and with the arguments unchanged.
-/
import proofs.«127195_j27814208209785_2_alg».proof.Proof.RefRunP
import proofs.«127195_j27814208209785_2_alg».proof.Proof.RefCuts
import proofs.«127195_j27814208209785_2_alg».proof.Proof.FoldAll
import Idealize.ShloMosaic.Lib.StableHlo.Run

set_option maxRecDepth 16384

noncomputable section

namespace Cert.Gcn.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The stretches -/

section Stretches
variable {F : FTy → Type} [FloatOps F]

abbrev S1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (maximumf : (⟨S100000, .f32⟩ : BufTy).Contents (Elt F) → (⟨S100000, .f32⟩ : BufTy).Contents (Elt F) → (⟨S100000, .f32⟩ : BufTy).Contents (Elt F)),
    unary main_v13 main_v14 (Host.rsqrt : (⟨S100000, .f32⟩ : BufTy).Contents (Elt F) → (⟨S100000, .f32⟩ : BufTy).Contents (Elt F)),
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v6 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v17 (broadcastInDim S1700000 ![] bcast_S_S1700000 : (⟨S_, .i32⟩ : BufTy).Contents (Elt F) → (⟨S1700000, .i32⟩ : BufTy).Contents (Elt F)),
    binary main_v6 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v6 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v22 (broadcastInDim S1700000 ![] bcast_S_S1700000 : (⟨S_, .i32⟩ : BufTy).Contents (Elt F) → (⟨S1700000, .i32⟩ : BufTy).Contents (Elt F)),
    binary main_v7 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v24 (broadcastInDim S1700000 ![] bcast_S_S1700000 : (⟨S_, .i32⟩ : BufTy).Contents (Elt F) → (⟨S1700000, .i32⟩ : BufTy).Contents (Elt F)),
    binary main_v7 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v7 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

abbrev S2 : List (HloOp τ sig (Elt F)) :=
  [ nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v6 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v6 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v6 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v4 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x128 ![0, 1] bcast_S1700000x1_S1700000x128_0_1 : (⟨S1700000x1, .f32⟩ : BufTy).Contents (Elt F) → (⟨S1700000x128, .f32⟩ : BufTy).Contents (Elt F)),
    binary main_v36 main_v38 main_v39 (mulf : (⟨S1700000x128, .f32⟩ : BufTy).Contents (Elt F) → (⟨S1700000x128, .f32⟩ : BufTy).Contents (Elt F) → (⟨S1700000x128, .f32⟩ : BufTy).Contents (Elt F)),
    nullary main_cst_7 (constant S_ .f32 0x00000000#32),
    unary main_cst_7 main_v40 (broadcastInDim S100000x128 ![] bcast_S_S100000x128 : (⟨S_, .f32⟩ : BufTy).Contents (Elt F) → (⟨S100000x128, .f32⟩ : BufTy).Contents (Elt F)),
    unary main_v7 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

abbrev S3 : List (HloOp τ sig (Elt F)) :=
  [ unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v45) (TRef.of (T := ⟨S100000x128, .f32⟩) main_call0_v0) (TRef.of (T := ⟨S100000x128, .f32⟩) main_v46) maximumf,
    binary main_v46 main_arg4 main_v47 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

abbrev S4 : List (HloOp τ sig (Elt F)) :=
  [ nullary main_v48 (iotaInDim S100000 32 0),
    binary main_v1 main_v48 main_v49 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v48 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_8 (constant S_ .f32 0x3F800000#32),
    unary main_cst_8 main_v51 (broadcastInDim S1700000 ![] bcast_S_S1700000 : (⟨S_, .f32⟩ : BufTy).Contents (Elt F) → (⟨S1700000, .f32⟩ : BufTy).Contents (Elt F)),
    nullary main_cst_9 (constant S_ .f32 0x00000000#32),
    unary main_cst_9 main_v52 (broadcastInDim S100000 ![] bcast_S_S100000 : (⟨S_, .f32⟩ : BufTy).Contents (Elt F) → (⟨S100000, .f32⟩ : BufTy).Contents (Elt F)),
    unary main_v50 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_10 (constant S_ .f32 0x3F800000#32),
    unary main_cst_10 main_v55 (broadcastInDim S100000 ![] bcast_S_S100000 : (⟨S_, .f32⟩ : BufTy).Contents (Elt F) → (⟨S100000, .f32⟩ : BufTy).Contents (Elt F)),
    binary main_v54 main_v55 main_v56 (maximumf : (⟨S100000, .f32⟩ : BufTy).Contents (Elt F) → (⟨S100000, .f32⟩ : BufTy).Contents (Elt F) → (⟨S100000, .f32⟩ : BufTy).Contents (Elt F)),
    unary main_v56 main_v57 (Host.rsqrt : (⟨S100000, .f32⟩ : BufTy).Contents (Elt F) → (⟨S100000, .f32⟩ : BufTy).Contents (Elt F)),
    nullary main_c_11 (constantI S_ 32 0#32),
    unary main_c_11 main_v58 (broadcastInDim S1700000 ![] bcast_S_S1700000 : (⟨S_, .i32⟩ : BufTy).Contents (Elt F) → (⟨S1700000, .i32⟩ : BufTy).Contents (Elt F)),
    binary main_v49 main_v58 main_v59 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v60 (broadcastInDim S1700000 ![] bcast_S_S1700000 : (⟨S_, .i32⟩ : BufTy).Contents (Elt F) → (⟨S1700000, .i32⟩ : BufTy).Contents (Elt F)),
    binary main_v49 main_v60 main_v61 (addi : (⟨S1700000, .i32⟩ : BufTy).Contents (Elt F) → (⟨S1700000, .i32⟩ : BufTy).Contents (Elt F) → (⟨S1700000, .i32⟩ : BufTy).Contents (Elt F)),
    ternary main_v59 main_v61 main_v49 main_v62 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v62 main_v63 (broadcastInDim S1700000x1 ![0] bcast_S1700000_S1700000x1_0 : (⟨S1700000, .i32⟩ : BufTy).Contents (Elt F) → (⟨S1700000x1, .i32⟩ : BufTy).Contents (Elt F)),
    binary main_v57 main_v63 main_v64 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_13 (constantI S_ 32 0#32),
    unary main_c_13 main_v65 (broadcastInDim S1700000 ![] bcast_S_S1700000 : (⟨S_, .i32⟩ : BufTy).Contents (Elt F) → (⟨S1700000, .i32⟩ : BufTy).Contents (Elt F)),
    binary main_v50 main_v65 main_v66 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v67 (broadcastInDim S1700000 ![] bcast_S_S1700000 : (⟨S_, .i32⟩ : BufTy).Contents (Elt F) → (⟨S1700000, .i32⟩ : BufTy).Contents (Elt F)),
    binary main_v50 main_v67 main_v68 (addi : (⟨S1700000, .i32⟩ : BufTy).Contents (Elt F) → (⟨S1700000, .i32⟩ : BufTy).Contents (Elt F) → (⟨S1700000, .i32⟩ : BufTy).Contents (Elt F)),
    ternary main_v66 main_v68 main_v50 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v69 main_v70 (broadcastInDim S1700000x1 ![0] bcast_S1700000_S1700000x1_0 : (⟨S1700000, .i32⟩ : BufTy).Contents (Elt F) → (⟨S1700000x1, .i32⟩ : BufTy).Contents (Elt F)),
    binary main_v57 main_v70 main_v71 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v64 main_v71 main_v72 (mulf : (⟨S1700000, .f32⟩ : BufTy).Contents (Elt F) → (⟨S1700000, .f32⟩ : BufTy).Contents (Elt F) → (⟨S1700000, .f32⟩ : BufTy).Contents (Elt F)) ]

abbrev S5 : List (HloOp τ sig (Elt F)) :=
  [ nullary main_c_15 (constantI S_ 32 0#32),
    unary main_c_15 main_v73 (broadcastInDim S1700000 ![] bcast_S_S1700000 : (⟨S_, .i32⟩ : BufTy).Contents (Elt F) → (⟨S1700000, .i32⟩ : BufTy).Contents (Elt F)),
    binary main_v49 main_v73 main_v74 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v75 (broadcastInDim S1700000 ![] bcast_S_S1700000 : (⟨S_, .i32⟩ : BufTy).Contents (Elt F) → (⟨S1700000, .i32⟩ : BufTy).Contents (Elt F)),
    binary main_v49 main_v75 main_v76 (addi : (⟨S1700000, .i32⟩ : BufTy).Contents (Elt F) → (⟨S1700000, .i32⟩ : BufTy).Contents (Elt F) → (⟨S1700000, .i32⟩ : BufTy).Contents (Elt F)),
    ternary main_v74 main_v76 main_v49 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v77 main_v78 (broadcastInDim S1700000x1 ![0] bcast_S1700000_S1700000x1_0 : (⟨S1700000, .i32⟩ : BufTy).Contents (Elt F) → (⟨S1700000x1, .i32⟩ : BufTy).Contents (Elt F)),
    binary main_v47 main_v78 main_v79 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v72 main_v80 (broadcastInDim S1700000x1 ![0] bcast_S1700000_S1700000x1_0 : (⟨S1700000, .f32⟩ : BufTy).Contents (Elt F) → (⟨S1700000x1, .f32⟩ : BufTy).Contents (Elt F)),
    unary main_v80 main_v81 (broadcastInDim S1700000x64 ![0, 1] bcast_S1700000x1_S1700000x64_0_1 : (⟨S1700000x1, .f32⟩ : BufTy).Contents (Elt F) → (⟨S1700000x64, .f32⟩ : BufTy).Contents (Elt F)),
    binary main_v79 main_v81 main_v82 (mulf : (⟨S1700000x64, .f32⟩ : BufTy).Contents (Elt F) → (⟨S1700000x64, .f32⟩ : BufTy).Contents (Elt F) → (⟨S1700000x64, .f32⟩ : BufTy).Contents (Elt F)),
    nullary main_cst_17 (constant S_ .f32 0x00000000#32),
    unary main_cst_17 main_v83 (broadcastInDim S100000x64 ![] bcast_S_S100000x64 : (⟨S_, .f32⟩ : BufTy).Contents (Elt F) → (⟨S100000x64, .f32⟩ : BufTy).Contents (Elt F)),
    unary main_v50 main_v84 (broadcastInDim S1700000x1 ![0] bcast_S1700000_S1700000x1_0 : (⟨S1700000, .i32⟩ : BufTy).Contents (Elt F) → (⟨S1700000x1, .i32⟩ : BufTy).Contents (Elt F)),
    ternary main_v83 main_v84 main_v82 main_v85 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

abbrev S6 : List (HloOp τ sig (Elt F)) :=
  [ unary main_arg5 main_v86 (broadcastInDim S1x64 ![1] bcast_S64_S1x64_1 : (⟨S64, .f32⟩ : BufTy).Contents (Elt F) → (⟨S1x64, .f32⟩ : BufTy).Contents (Elt F)),
    unary main_v86 main_v87 (broadcastInDim S100000x64 ![0, 1] bcast_S1x64_S100000x64_0_1 : (⟨S1x64, .f32⟩ : BufTy).Contents (Elt F) → (⟨S100000x64, .f32⟩ : BufTy).Contents (Elt F)),
    binary main_v85 main_v87 main_v88 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v88) (TRef.of (T := ⟨S100000x64, .f32⟩) main_call1_v0) (TRef.of (T := ⟨S100000x64, .f32⟩) main_v89) maximumf,
    binary main_v89 main_arg6 main_v90 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg7 main_v91 (broadcastInDim S1x16 ![1] bcast_S16_S1x16_1 : (⟨S16, .f32⟩ : BufTy).Contents (Elt F) → (⟨S1x16, .f32⟩ : BufTy).Contents (Elt F)),
    unary main_v91 main_v92 (broadcastInDim S100000x16 ![0, 1] bcast_S1x16_S100000x16_0_1 : (⟨S1x16, .f32⟩ : BufTy).Contents (Elt F) → (⟨S100000x16, .f32⟩ : BufTy).Contents (Elt F)),
    binary main_v90 main_v92 main_v93 (addf : (⟨S100000x16, .f32⟩ : BufTy).Contents (Elt F) → (⟨S100000x16, .f32⟩ : BufTy).Contents (Elt F) → (⟨S100000x16, .f32⟩ : BufTy).Contents (Elt F)) ]

abbrev S7 : List (HloOp τ sig (Elt F)) :=
  [ TRef.nullary (TRef.of (T := ⟨S_, .f32⟩) main_call2_cst) (constant S_ .f32 0xFF800000#32),
    TRef.binary (TRef.of (T := ⟨S100000x16, .f32⟩) main_v93) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v93) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v94) subf ]

set_option maxRecDepth 8192 in
set_option maxHeartbeats 4000000 in
/-- The line is the stretches one after the other. -/
theorem ops_split : (ops (F := F)) = S1 ++ (S2 ++ (S3 ++ (S4 ++ (S5 ++ (S6 ++ S7))))) := rfl

end Stretches

/-- The fold of a line that is two lines one after the other is the second's fold of the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-! ## Each stretch at the buffers the next one takes -/

/-- A value carried along an equation of types and back along its converse is the value: what an operation of a called
    function does to its result between two reads of it. -/
theorem cast_pair {α β : Type} (h1 : α = β) (h2 : β = α) (v : α) : cast h2 (cast h1 v) = v := by
  subst h1; rfl

theorem s1_v4 (W : Valuation τ sig (Elt Ideal)) :
    after (S1 (F := Ideal)) W (Proc.devRef .tc main_v4) = val_main_v4 (F := Ideal) (W (Proc.devRef .tc main_arg0)) (W (Proc.devRef .tc main_arg2)) := by
  fold_all <;> rfl
theorem s1_v1 (W : Valuation τ sig (Elt Ideal)) :
    after (S1 (F := Ideal)) W (Proc.devRef .tc main_v1) = val_main_v1 (F := Ideal) (W (Proc.devRef .tc main_arg1)) := by
  fold_all <;> rfl
theorem s1_v3 (W : Valuation τ sig (Elt Ideal)) :
    after (S1 (F := Ideal)) W (Proc.devRef .tc main_v3) = val_main_v3 (F := Ideal) (W (Proc.devRef .tc main_arg1)) := by
  fold_all <;> rfl
theorem s1_v6 (W : Valuation τ sig (Elt Ideal)) :
    after (S1 (F := Ideal)) W (Proc.devRef .tc main_v6) = val_main_v6 (F := Ideal) (W (Proc.devRef .tc main_arg1)) := by
  fold_all <;> rfl
theorem s1_v7 (W : Valuation τ sig (Elt Ideal)) :
    after (S1 (F := Ideal)) W (Proc.devRef .tc main_v7) = val_main_v7 (F := Ideal) (W (Proc.devRef .tc main_arg1)) := by
  fold_all <;> rfl
theorem s1_v29 (W : Valuation τ sig (Elt Ideal)) :
    after (S1 (F := Ideal)) W (Proc.devRef .tc main_v29) = val_main_v29 (F := Ideal) (W (Proc.devRef .tc main_arg1)) := by
  fold_all <;> rfl

theorem s2_v42 (W : Valuation τ sig (Elt Ideal)) :
    after (S2 (F := Ideal)) W (Proc.devRef .tc main_v42)
      = Cert.Gcn.agg128 (W (Proc.devRef .tc main_v4)) (W (Proc.devRef .tc main_v6)) (W (Proc.devRef .tc main_v7)) (W (Proc.devRef .tc main_v29)) := by
  fold_all <;> rfl

theorem s3_v47 (W : Valuation τ sig (Elt Ideal)) :
    after (S3 (F := Ideal)) W (Proc.devRef .tc main_v47) = Cert.Gcn.dense2 (W (Proc.devRef .tc main_v42)) (W (Proc.devRef .tc main_arg3)) (W (Proc.devRef .tc main_arg4)) := by
  fold_all <;> rfl

/-- The second building of the graph quantities, as functions of the two rows of the edge list the first stretch left. -/
theorem s4_v49 (W : Valuation τ sig (Elt Ideal)) (x1 : IVec S2x1600000 32)
    (h1 : W (Proc.devRef .tc main_v1) = val_main_v1 (F := Ideal) x1) :
    after (S4 (F := Ideal)) W (Proc.devRef .tc main_v49) = val_main_v49 (F := Ideal) x1 := by
  fold_all
  rw [h1]; rfl
theorem s4_v50 (W : Valuation τ sig (Elt Ideal)) (x1 : IVec S2x1600000 32)
    (h3 : W (Proc.devRef .tc main_v3) = val_main_v3 (F := Ideal) x1) :
    after (S4 (F := Ideal)) W (Proc.devRef .tc main_v50) = val_main_v50 (F := Ideal) x1 := by
  fold_all
  rw [h3]; rfl
theorem s4_v72 (W : Valuation τ sig (Elt Ideal)) (x1 : IVec S2x1600000 32)
    (h1 : W (Proc.devRef .tc main_v1) = val_main_v1 (F := Ideal) x1) (h3 : W (Proc.devRef .tc main_v3) = val_main_v3 (F := Ideal) x1) :
    after (S4 (F := Ideal)) W (Proc.devRef .tc main_v72) = val_main_v72 (F := Ideal) x1 := by
  fold_all
  rw [h1, h3]; rfl

theorem s5_v85 (W : Valuation τ sig (Elt Ideal)) :
    after (S5 (F := Ideal)) W (Proc.devRef .tc main_v85)
      = Cert.Gcn.agg64 (W (Proc.devRef .tc main_v47)) (W (Proc.devRef .tc main_v49)) (W (Proc.devRef .tc main_v50)) (W (Proc.devRef .tc main_v72)) := by
  fold_all <;> rfl

theorem s6_v93 (W : Valuation τ sig (Elt Ideal)) :
    after (S6 (F := Ideal)) W (Proc.devRef .tc main_v93)
      = Cert.Gcn.scores (W (Proc.devRef .tc main_v85)) (W (Proc.devRef .tc main_arg5)) (W (Proc.devRef .tc main_arg6)) (W (Proc.devRef .tc main_arg7)) := by
  fold_all <;> rfl

theorem s7_v94 (W : Valuation τ sig (Elt Ideal)) :
    after (S7 (F := Ideal)) W (Proc.devRef .tc main_v94) = Cert.Gcn.logSoftmax (W (Proc.devRef .tc main_v93)) := by
  fold_all
  simp only [cast_pair]
  rfl

/-! ## What each stretch leaves alone -/

theorem keep1_main_arg3 (W : Valuation τ sig (Elt Ideal)) : after (S1 (F := Ideal)) W (Proc.devRef .tc main_arg3) = W (Proc.devRef .tc main_arg3) := by
  fold_all

theorem keep1_main_arg4 (W : Valuation τ sig (Elt Ideal)) : after (S1 (F := Ideal)) W (Proc.devRef .tc main_arg4) = W (Proc.devRef .tc main_arg4) := by
  fold_all

theorem keep1_main_arg5 (W : Valuation τ sig (Elt Ideal)) : after (S1 (F := Ideal)) W (Proc.devRef .tc main_arg5) = W (Proc.devRef .tc main_arg5) := by
  fold_all

theorem keep1_main_arg6 (W : Valuation τ sig (Elt Ideal)) : after (S1 (F := Ideal)) W (Proc.devRef .tc main_arg6) = W (Proc.devRef .tc main_arg6) := by
  fold_all

theorem keep1_main_arg7 (W : Valuation τ sig (Elt Ideal)) : after (S1 (F := Ideal)) W (Proc.devRef .tc main_arg7) = W (Proc.devRef .tc main_arg7) := by
  fold_all

theorem keep2_main_v1 (W : Valuation τ sig (Elt Ideal)) : after (S2 (F := Ideal)) W (Proc.devRef .tc main_v1) = W (Proc.devRef .tc main_v1) := by
  fold_all

theorem keep2_main_v3 (W : Valuation τ sig (Elt Ideal)) : after (S2 (F := Ideal)) W (Proc.devRef .tc main_v3) = W (Proc.devRef .tc main_v3) := by
  fold_all

theorem keep2_main_arg3 (W : Valuation τ sig (Elt Ideal)) : after (S2 (F := Ideal)) W (Proc.devRef .tc main_arg3) = W (Proc.devRef .tc main_arg3) := by
  fold_all

theorem keep2_main_arg4 (W : Valuation τ sig (Elt Ideal)) : after (S2 (F := Ideal)) W (Proc.devRef .tc main_arg4) = W (Proc.devRef .tc main_arg4) := by
  fold_all

theorem keep2_main_arg5 (W : Valuation τ sig (Elt Ideal)) : after (S2 (F := Ideal)) W (Proc.devRef .tc main_arg5) = W (Proc.devRef .tc main_arg5) := by
  fold_all

theorem keep2_main_arg6 (W : Valuation τ sig (Elt Ideal)) : after (S2 (F := Ideal)) W (Proc.devRef .tc main_arg6) = W (Proc.devRef .tc main_arg6) := by
  fold_all

theorem keep2_main_arg7 (W : Valuation τ sig (Elt Ideal)) : after (S2 (F := Ideal)) W (Proc.devRef .tc main_arg7) = W (Proc.devRef .tc main_arg7) := by
  fold_all

theorem keep3_main_v1 (W : Valuation τ sig (Elt Ideal)) : after (S3 (F := Ideal)) W (Proc.devRef .tc main_v1) = W (Proc.devRef .tc main_v1) := by
  fold_all

theorem keep3_main_v3 (W : Valuation τ sig (Elt Ideal)) : after (S3 (F := Ideal)) W (Proc.devRef .tc main_v3) = W (Proc.devRef .tc main_v3) := by
  fold_all

theorem keep3_main_arg5 (W : Valuation τ sig (Elt Ideal)) : after (S3 (F := Ideal)) W (Proc.devRef .tc main_arg5) = W (Proc.devRef .tc main_arg5) := by
  fold_all

theorem keep3_main_arg6 (W : Valuation τ sig (Elt Ideal)) : after (S3 (F := Ideal)) W (Proc.devRef .tc main_arg6) = W (Proc.devRef .tc main_arg6) := by
  fold_all

theorem keep3_main_arg7 (W : Valuation τ sig (Elt Ideal)) : after (S3 (F := Ideal)) W (Proc.devRef .tc main_arg7) = W (Proc.devRef .tc main_arg7) := by
  fold_all

theorem keep4_main_v47 (W : Valuation τ sig (Elt Ideal)) : after (S4 (F := Ideal)) W (Proc.devRef .tc main_v47) = W (Proc.devRef .tc main_v47) := by
  fold_all

theorem keep4_main_arg5 (W : Valuation τ sig (Elt Ideal)) : after (S4 (F := Ideal)) W (Proc.devRef .tc main_arg5) = W (Proc.devRef .tc main_arg5) := by
  fold_all

theorem keep4_main_arg6 (W : Valuation τ sig (Elt Ideal)) : after (S4 (F := Ideal)) W (Proc.devRef .tc main_arg6) = W (Proc.devRef .tc main_arg6) := by
  fold_all

theorem keep4_main_arg7 (W : Valuation τ sig (Elt Ideal)) : after (S4 (F := Ideal)) W (Proc.devRef .tc main_arg7) = W (Proc.devRef .tc main_arg7) := by
  fold_all

theorem keep5_main_arg5 (W : Valuation τ sig (Elt Ideal)) : after (S5 (F := Ideal)) W (Proc.devRef .tc main_arg5) = W (Proc.devRef .tc main_arg5) := by
  fold_all

theorem keep5_main_arg6 (W : Valuation τ sig (Elt Ideal)) : after (S5 (F := Ideal)) W (Proc.devRef .tc main_arg6) = W (Proc.devRef .tc main_arg6) := by
  fold_all

theorem keep5_main_arg7 (W : Valuation τ sig (Elt Ideal)) : after (S5 (F := Ideal)) W (Proc.devRef .tc main_arg7) = W (Proc.devRef .tc main_arg7) := by
  fold_all

/-! ## The second building of the graph quantities gives the first's -/

theorem v49_eq (x1 : IVec S2x1600000 32) : val_main_v49 (F := Ideal) x1 = val_main_v6 (F := Ideal) x1 := rfl
theorem v50_eq (x1 : IVec S2x1600000 32) : val_main_v50 (F := Ideal) x1 = val_main_v7 (F := Ideal) x1 := rfl
theorem v72_eq (x1 : IVec S2x1600000 32) : val_main_v72 (F := Ideal) x1 = val_main_v29 (F := Ideal) x1 := rfl

/-! ## The whole line -/

/-- The result buffer after the whole line: the reference's function of the arguments. -/
theorem ref_value (W : Valuation τ sig (Elt Ideal)) :
    after (ops (F := Ideal)) W (Proc.devRef .tc main_v94)
      = val_main_v94 (F := Ideal) (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  rw [ops_split (F := Ideal), after_append, after_append, after_append, after_append, after_append, after_append]
  have e1 : after (S3 (F := Ideal)) (after (S2 (F := Ideal)) (after (S1 (F := Ideal)) W)) (Proc.devRef .tc main_v1) = val_main_v1 (F := Ideal) (W (Proc.devRef .tc main_arg1)) := by
    rw [keep3_main_v1, keep2_main_v1, s1_v1]
  have e3 : after (S3 (F := Ideal)) (after (S2 (F := Ideal)) (after (S1 (F := Ideal)) W)) (Proc.devRef .tc main_v3) = val_main_v3 (F := Ideal) (W (Proc.devRef .tc main_arg1)) := by
    rw [keep3_main_v3, keep2_main_v3, s1_v3]
  rw [s7_v94, s6_v93, s5_v85, keep5_main_arg5, keep5_main_arg6, keep5_main_arg7,
    keep4_main_v47, keep4_main_arg5, keep4_main_arg6, keep4_main_arg7,
    s4_v49 _ _ e1, s4_v50 _ _ e3, s4_v72 _ _ e1 e3,
    s3_v47, keep3_main_arg5, keep3_main_arg6, keep3_main_arg7,
    s2_v42, keep2_main_arg3, keep2_main_arg4, keep2_main_arg5, keep2_main_arg6, keep2_main_arg7,
    s1_v4, s1_v6, s1_v7, s1_v29, keep1_main_arg3, keep1_main_arg4, keep1_main_arg5, keep1_main_arg6, keep1_main_arg7,
    v49_eq, v50_eq, v72_eq, Cert.Gcn.val_main_v94_eq_net]

set_option maxRecDepth 8192 in
set_option maxHeartbeats 53200000 in
/-- On every device, from any memory with zero counters: every weakly fair execution of the reference's @main
    terminates with the result at the reference's function of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94)
        = val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v94).trans (ref_value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.Gcn.RefRun

end
-- ==== Proof.KernelRun.lean ====
/-
  The idealized kernel's run with its result named.

  @main is three stretches of host operations, each followed by a launch; the buffers' contents at every boundary are
  a fold from the launch memory (the stretches' operations applied in order, each launch's arrays replaced by what its
  write-backs leave). Every weakly fair execution ends with each unscoped buffer at the last boundary's contents; read at
  the result buffer this names the program's result, and read at the argument buffers it says they are unchanged.
-/
import proofs.«127195_j27814208209785_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.Gcn.KernelRun

end
-- ==== Proof.Region0.lean ====
/-
  The first dense stage on the chip: `x · W₁`, ten blocks of 10000 rows.

  At grid point `t` the body multiplies rows `10000 t … 10000 t + 9999` of `x` by the whole of `W₁` into a zero
  accumulator and writes the 10000 × 128 product back to the same rows of the result (the changes of float format are
  the identity on the extended reals). Entry `(p, q)` of the block is the sum over `k` of `x (10000 t + p, k) · W₁ (k, q)`,
  which is entry `(10000 t + p, q)` of the whole product `x · W₁`; the ten blocks cover every row, so the array the
  region leaves is the whole product of the arrays it found.
-/
import proofs.«127195_j27814208209785_2_alg».proof.Proof.Gen.KernelIdeal.Frame
import proofs.«127195_j27814208209785_2_alg».proof.Proof.RefCuts
import proofs.«127195_j27814208209785_2_alg».proof.Proof.LibDotIdx
import Idealize.ShloMosaic.Lib.Pipeline.Value

set_option maxRecDepth 16384

noncomputable section

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at `(p, q)`: row `p` of the block of `x` against column `q` of `W₁`. -/
theorem pay_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  rw [truncf_apply]
  refine (DotIdx.matmul_plain_zero_apply _ none _ _ p q).trans ?_
  refine Finset.sum_congr rfl fun k _ => ?_
  rw [truncf_apply, truncf_apply]

/-- The block index maps over the ten grid points: the rows of `x` move with the rows of the result, the columns and
    `W₁` stay. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some grid point's. -/
theorem idx_onto : ∀ q0 : Fin 10, ∃ t : Fin cfg0.N, win0_2.index t (0 : Fin 2) = q0.val :=
  (by decide +kernel : ∀ q0 : Fin 10, ∃ t : Fin grid0.N, win0_2.index t (0 : Fin 2) = q0.val)

/-- What grid point `t` writes back is block `t` of the whole product. -/
theorem flushed_eq (c : Dev nD) (t : Fin cfg0.N) :
    (dat0 V c).flushed 2 t = ((cfg0.win 2).blk t).view.read (Elt Ideal)
      (Cert.ReferenceIdeal.ReadP.val_main_v4 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = Cert.ReferenceIdeal.ReadP.val_main_v4 (F := Ideal) (V c main_arg0) (V c main_arg2) (((cfg0.win 2).blk t).view.emb (ix2 p q))
  rw [pay_apply, Cert.Gcn.dense1_apply]
  refine Finset.sum_congr rfl fun k _ => ?_
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v29).slice (win0_2.rect t)).set ↔ _
  rw [View.set_slice_whole, Rect.mem_set_unit]
  exact Iff.rfl

/-- Row `r` is in the block of grid point `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  obtain ⟨e0, e1, e2, e3, e4, e5⟩ := idx_facts t
  have ht' : win0_2.index t (0 : Fin 2) = (i 0).val / 10000 := ht
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The array the region leaves: the whole product of the arrays it found. -/
theorem final (c : Dev nD) :
    (dat0 V c).arrAt 2 cfg0.N = Cert.ReferenceIdeal.ReadP.val_main_v4 (F := Ideal) (V c main_arg0) (V c main_arg2) :=
  (dat0 V c).arrAt_eq_of_cover 2 _ (fun t _ => flushed_eq V c t) cover

end Cert.Gcn.Region0

end
-- ==== Proof.Region1.lean ====
/-
  The second dense stage on the chip: `relu (c + b₁) · W₂`, ten blocks of 10000 rows.

  At grid point `t` the body adds the bias `b₁` along every row of rows `10000 t … 10000 t + 9999` of the aggregated
  features `c`, clamps at zero, multiplies by the whole of `W₂` into a zero accumulator and writes the 10000 × 64
  product back to the same rows of the result. Entry `(p, q)` of the block is the sum over `k` of
  `max (c (10000 t + p, k) + b₁ k) 0 · W₂ (k, q)`: the entry `(10000 t + p, q)` of the reference's second dense stage of
  the same arrays. The ten blocks cover every row.
-/
import proofs.«127195_j27814208209785_2_alg».proof.Proof.Gen.KernelIdeal.Frame
import proofs.«127195_j27814208209785_2_alg».proof.Proof.RefCuts
import proofs.«127195_j27814208209785_2_alg».proof.Proof.LibDotIdx
import proofs.«127195_j27814208209785_2_alg».proof.Proof.LibRowOps
import Idealize.ShloMosaic.Lib.Pipeline.Value

set_option maxRecDepth 16384

noncomputable section

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The body's result at `(p, q)`: the clamped, biased row `p` of the block of `c` against column `q` of `W₂`. -/
theorem pay_apply (x0 : Vec Ideal S10000x128 .f32) (x1 : Vec Ideal S128 .f32) (x2 : Vec Ideal S128x64 .f32)
    (p : Fin 10000) (q : Fin 64) :
    k1_pay1 (F := Ideal) x0 x1 x2 (ix2 p q)
      = Cert.Gcn.reluDot (fun k : Fin 128 => x0 (ix2 p k)) (fun k => x1 (ix1 k)) (fun k => x2 (ix2 k q)) := by
  unfold k1_pay1 Cert.Gcn.reluDot
  rw [truncf_apply]
  refine (DotIdx.matmul_plain_zero_apply _ none _ _ p q).trans ?_
  refine Finset.sum_congr rfl fun k _ => ?_
  rw [truncf_apply, truncf_apply, maximumf_apply, addf_apply, shapeCast_self, Cert.LibRowOps.rowVec_kernel_apply, broadcast_apply]
  rfl

/-- The block index maps over the ten grid points: the rows of `c` move with the rows of the result; the bias and `W₂`
    stay. -/
theorem idx_facts : ∀ t : Fin cfg1.N, win1_0.index t (0 : Fin 2) = win1_3.index t (0 : Fin 2)
    ∧ win1_0.index t (1 : Fin 2) = 0 ∧ win1_1.index t (0 : Fin 1) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some grid point's. -/
theorem idx_onto : ∀ q0 : Fin 10, ∃ t : Fin cfg1.N, win1_3.index t (0 : Fin 2) = q0.val :=
  (by decide +kernel : ∀ q0 : Fin 10, ∃ t : Fin grid1.N, win1_3.index t (0 : Fin 2) = q0.val)

/-- What grid point `t` writes back is block `t` of the reference's second dense stage of the arrays found. -/
theorem flushed_eq (c : Dev nD) (t : Fin cfg1.N) :
    (dat1 V c).flushed 3 t = ((cfg1.win 3).blk t).view.read (Elt Ideal)
      (Cert.Gcn.dense2 (V c main_v43) (V c main_arg3) (V c main_arg4)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128) hz1, View.ld_unit_zero (S := S128x64) hz]
  obtain ⟨e0, e1, e2, e3, e4, e5, e6⟩ := idx_facts t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q)
    = Cert.Gcn.dense2 (V c main_v43) (V c main_arg3) (V c main_arg4) (((cfg1.win 3).blk t).view.emb (ix2 p q))
  rw [pay_apply, Cert.Gcn.dense2_apply]
  have h0 : (fun k : Fin 128 => iblk1 V c 0 t (ix2 p k))
      = fun k : Fin 128 => V c main_v43 (ix2 ((((cfg1.win 3).blk t).view.emb (ix2 p q)) 0) k) := by
    funext k
    show V c main_v43 (((cfg1.win 0).blk t).view.emb (ix2 p k)) = _
    refine congrArg (V c main_v43) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * k.val = k.val; omega
  have h1 : (fun k : Fin 128 => iblk1 V c 1 t (ix1 k)) = fun k : Fin 128 => V c main_arg3 (ix1 k) := by
    funext k
    show V c main_arg3 (((cfg1.win 1).blk t).view.emb (ix1 k)) = _
    refine congrArg (V c main_arg3) (funext fun a => Fin.ext ?_)
    match a with
    | ⟨0, _⟩ => show win1_1.index t (0 : Fin 1) * 128 + 1 * k.val = k.val; omega
  have h2 : (fun k : Fin 128 => iblk1 V c 2 t (ix2 k q))
      = fun k : Fin 128 => V c main_arg4 (ix2 k ((((cfg1.win 3).blk t).view.emb (ix2 p q)) 1)) := by
    funext k
    show V c main_arg4 (((cfg1.win 2).blk t).view.emb (ix2 k q)) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 64 + 1 * q.val = win1_3.index t (1 : Fin 2) * 64 + 1 * q.val; omega
  rw [h0, h1, h2]

/-- An index of the result is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v44).slice (win1_3.rect t)).set ↔ _
  rw [View.set_slice_whole, Rect.mem_set_unit]
  exact Iff.rfl

/-- Row `r` is in the block of grid point `r / 10000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  obtain ⟨e0, e1, e2, e3, e4, e5, e6⟩ := idx_facts t
  have ht' : win1_3.index t (0 : Fin 2) = (i 0).val / 10000 := ht
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- The array the region leaves: the reference's second dense stage of the arrays it found. -/
theorem final (c : Dev nD) :
    (dat1 V c).arrAt 3 cfg1.N = Cert.Gcn.dense2 (V c main_v43) (V c main_arg3) (V c main_arg4) :=
  (dat1 V c).arrAt_eq_of_cover 3 _ (fun t _ => flushed_eq V c t) cover

end Cert.Gcn.Region1

end
-- ==== Proof.Region2.lean ====
/-
  The classifier on the chip: `logSoftmax (relu (c + b₂) · W_fc + b_fc)` row by row, twenty blocks of 5000 rows.

  At grid point `t` the body forms the 5000 × 16 class scores of rows `5000 t … 5000 t + 4999` of the aggregated features
  `c` (bias along the rows, clamp at zero, product with the whole of `W_fc` into a zero accumulator, the bias `b_fc` along
  the rows), subtracts from each row its maximum, and subtracts from that the logarithm of the row's sum of exponentials.
  Entry `(p, q)` of the block depends on row `p` of the block's scores only, which is row `5000 t + p` of the reference's
  scores of the same arrays: it is `logSoftmaxAt` of that row at `q` in both programs. The reference takes the row maximum
  once more against minus infinity and starts its sum from a zero; neither changes the value. The twenty blocks cover
  every row.
-/
import proofs.«127195_j27814208209785_2_alg».proof.Proof.Gen.KernelIdeal.Frame
import proofs.«127195_j27814208209785_2_alg».proof.Proof.RefCuts
import proofs.«127195_j27814208209785_2_alg».proof.Proof.LibDotIdx
import proofs.«127195_j27814208209785_2_alg».proof.Proof.LibRowOps
import proofs.«127195_j27814208209785_2_alg».proof.Proof.LibKeepdims
import Idealize.ShloMosaic.Lib.Pipeline.Value

set_option maxRecDepth 16384

noncomputable section

namespace Cert.Gcn.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The body in three pieces -/

/-- The block's class scores. -/
def scoresBlk (x0 : Vec Ideal S5000x64 .f32) (x1 : Vec Ideal S64 .f32) (x2 : Vec Ideal S64x16 .f32) (x3 : Vec Ideal S16 .f32) :
    FVec Ideal S5000x16 .f32 :=
  addf (matmul dot_S5000x64_S64x16_S5000x16_1_0_0_1_n_n none
      (truncf .bf16 (maximumf (addf (shapeCast S5000x64 x0 shapeCasts_S5000x64_S5000x64)
          (broadcastTo S5000x64 (shapeCast S1x64 x1 shapeCasts_S64_S1x64) broadcasts_S1x64_S5000x64))
        (broadcast S5000x64 (Scalar.ofBits .f32 0x00000000#32))) bitsLt_bf16_f32)
      (truncf .bf16 x2 bitsLt_bf16_f32) (constant S5000x16 .f32 0x00000000#32))
    (broadcastTo S5000x16 (shapeCast S1x16 x3 shapeCasts_S16_S1x16) broadcasts_S1x16_S5000x16)

/-- The scores less each row's maximum. -/
def shiftedBlk (L : FVec Ideal S5000x16 .f32) : FVec Ideal S5000x16 .f32 :=
  subf L (broadcastTo S5000x16 (shapeCast S5000x1
    (multiReduction .maximumf [1] S5000 L 0xFF800000#32 reduces_S5000x16_S5000 (.inl rfl) rfl) shapeCasts_S5000_S5000x1)
    broadcasts_S5000x1_S5000x16)

/-- The block's log-softmax. -/
def logSoftmaxBlk (L : FVec Ideal S5000x16 .f32) : FVec Ideal S5000x16 .f32 :=
  subf (shiftedBlk L) (broadcastTo S5000x16 (log (shapeCast S5000x1
    (multiReduction .add [1] S5000 (exp (shiftedBlk L)) 0x00000000#32 reduces_S5000x16_S5000 (.inl rfl) rfl) shapeCasts_S5000_S5000x1))
    broadcasts_S5000x1_S5000x16)

/-- The body's stored value is these composed. -/
theorem pay_eq (x0 : Vec Ideal S5000x64 .f32) (x1 : Vec Ideal S64 .f32) (x2 : Vec Ideal S64x16 .f32) (x3 : Vec Ideal S16 .f32) :
    k2_pay1 (F := Ideal) x0 x1 x2 x3 = logSoftmaxBlk (scoresBlk x0 x1 x2 x3) := rfl

/-! ## Each piece at an index -/

/-- The block's scores at `(p, q)`. -/
theorem scoresBlk_apply (x0 : Vec Ideal S5000x64 .f32) (x1 : Vec Ideal S64 .f32) (x2 : Vec Ideal S64x16 .f32)
    (x3 : Vec Ideal S16 .f32) (p : Fin 5000) (q : Fin 16) :
    scoresBlk x0 x1 x2 x3 (ix2 p q)
      = Cert.Gcn.reluDot (fun k : Fin 64 => x0 (ix2 p k)) (fun k => x1 (ix1 k)) (fun k => x2 (ix2 k q)) + x3 (ix1 q) := by
  unfold scoresBlk Cert.Gcn.reluDot
  rw [addf_apply, Cert.LibRowOps.rowVec_kernel_apply]
  refine congrArg (· + _) ?_
  refine (DotIdx.matmul_plain_zero_apply _ none _ _ p q).trans ?_
  refine Finset.sum_congr rfl fun k _ => ?_
  rw [truncf_apply, truncf_apply, maximumf_apply, addf_apply, shapeCast_self, Cert.LibRowOps.rowVec_kernel_apply, broadcast_apply]
  rfl

/-- The shifted scores at `(p, q)`: the entry less its row's maximum. -/
theorem shiftedBlk_apply (L : FVec Ideal S5000x16 .f32) (p : Fin 5000) (q : Fin 16) :
    shiftedBlk L (ix2 p q) = L (ix2 p q) - Cert.Gcn.rowMax (fun j : Fin 16 => L (ix2 p j)) := by
  unfold shiftedBlk
  rw [subf_apply, Cert.LibRowOps.colVec_kernel_apply]
  exact congrArg (L (ix2 p q) - ·) (Cert.LibRowOps.rowMax_kernel_apply L _ _ _ _ p)

/-- The block's log-softmax at `(p, q)`: `logSoftmaxAt` of row `p`. -/
theorem logSoftmaxBlk_apply (L : FVec Ideal S5000x16 .f32) (p : Fin 5000) (q : Fin 16) :
    logSoftmaxBlk L (ix2 p q) = Cert.Gcn.logSoftmaxAt (fun j : Fin 16 => L (ix2 p j)) q := by
  unfold logSoftmaxBlk Cert.Gcn.logSoftmaxAt
  rw [subf_apply, shiftedBlk_apply, Cert.SupCon.Ker.broadcastTo_a1_ab_apply, Cert.LibRowOps.log_apply,
    Cert.SupCon.Ker.shapeCast_a_a1_apply]
  refine congrArg (fun y => (L (ix2 p q) - Cert.Gcn.rowMax (fun j : Fin 16 => L (ix2 p j))) - Ideal.log y) ?_
  refine (Cert.LibRowOps.rowSum_kernel_apply (exp (shiftedBlk L)) _ _ _ _ p).trans ?_
  refine Finset.sum_congr rfl fun j _ => ?_
  rw [Cert.LibRowOps.exp_apply, shiftedBlk_apply]

/-- The body's stored value at `(p, q)`: `logSoftmaxAt` of the row of scores it belongs to. -/
theorem pay_apply (x0 : Vec Ideal S5000x64 .f32) (x1 : Vec Ideal S64 .f32) (x2 : Vec Ideal S64x16 .f32) (x3 : Vec Ideal S16 .f32)
    (p : Fin 5000) (q : Fin 16) :
    k2_pay1 (F := Ideal) x0 x1 x2 x3 (ix2 p q)
      = Cert.Gcn.logSoftmaxAt (fun q' : Fin 16 =>
          Cert.Gcn.reluDot (fun k : Fin 64 => x0 (ix2 p k)) (fun k => x1 (ix1 k)) (fun k => x2 (ix2 k q')) + x3 (ix1 q')) q := by
  rw [pay_eq, logSoftmaxBlk_apply]
  refine congrArg (fun f => Cert.Gcn.logSoftmaxAt f q) (funext fun q' => ?_)
  exact scoresBlk_apply x0 x1 x2 x3 p q'

/-- The reference's classifier at `i`, in the same form. -/
theorem ref_apply (cv : S100000x64.Idx → EReal) (x5 : S64.Idx → EReal) (x6 : S64x16.Idx → EReal) (x7 : S16.Idx → EReal)
    (i : S100000x16.Idx) :
    Cert.Gcn.logSoftmax (Cert.Gcn.scores cv x5 x6 x7) i
      = Cert.Gcn.logSoftmaxAt (fun q : Fin 16 =>
          Cert.Gcn.reluDot (fun k : Fin 64 => cv (ix2 (i 0) k)) (fun k => x5 (ix1 k)) (fun k => x6 (ix2 k q)) + x7 (ix1 q)) (i 1) := by
  rw [Cert.Gcn.logSoftmax_apply]
  refine congrArg (fun f => Cert.Gcn.logSoftmaxAt f (i 1)) (funext fun q => ?_)
  exact Cert.Gcn.scores_apply cv x5 x6 x7 (ix2 (i 0) q)

/-! ## From the blocks to the array -/

/-- The block index maps over the twenty grid points: the rows of `c` move with the rows of the result; the biases and
    `W_fc` stay. -/
theorem idx_facts : ∀ t : Fin cfg2.N, win2_0.index t (0 : Fin 2) = win2_4.index t (0 : Fin 2)
    ∧ win2_0.index t (1 : Fin 2) = 0 ∧ win2_1.index t (0 : Fin 1) = 0
    ∧ win2_2.index t (0 : Fin 2) = 0 ∧ win2_2.index t (1 : Fin 2) = 0 ∧ win2_3.index t (0 : Fin 1) = 0
    ∧ win2_4.index t (1 : Fin 2) = 0 ∧ win2_4.index t (0 : Fin 2) ≤ 19 :=
  (by decide +kernel : ∀ t : Fin grid2.N, _)

/-- Every one of the twenty row blocks is some grid point's. -/
theorem idx_onto : ∀ q0 : Fin 20, ∃ t : Fin cfg2.N, win2_4.index t (0 : Fin 2) = q0.val :=
  (by decide +kernel : ∀ q0 : Fin 20, ∃ t : Fin grid2.N, win2_4.index t (0 : Fin 2) = q0.val)

/-- What grid point `t` writes back is block `t` of the reference's classifier of the arrays found. -/
theorem flushed_eq (c : Dev nD) (t : Fin cfg2.N) :
    (dat2 V c).flushed 4 t = ((cfg2.win 4).blk t).view.read (Elt Ideal)
      (Cert.Gcn.logSoftmax (Cert.Gcn.scores (V c main_v58) (V c main_arg5) (V c main_arg6) (V c main_arg7))) := by
  show (cfg2.win 4).cut (grid2.coords t) ((dat2 V c).after 4 t) = _
  rw [after2_4]
  unfold out2_4
  rw [View.canon_unit_zero hz]
  simp only [View.ld_unit_zero (S := S5000x64) hz, View.ld_unit_zero (S := S64) hz1, View.ld_unit_zero (S := S64x16) hz,
    View.ld_unit_zero (S := S16) hz1]
  obtain ⟨e0, e1, e2, e3, e4, e5, e6, e7⟩ := idx_facts t
  funext j
  obtain ⟨p, q, rfl⟩ : ∃ (p : Fin 5000) (q : Fin 16), j = ix2 p q := ⟨j 0, j 1, eq_ix2 j⟩
  show k2_pay1 (iblk2 V c 0 t) (iblk2 V c 1 t) (iblk2 V c 2 t) (iblk2 V c 3 t) (ix2 p q)
    = Cert.Gcn.logSoftmax (Cert.Gcn.scores (V c main_v58) (V c main_arg5) (V c main_arg6) (V c main_arg7)) (((cfg2.win 4).blk t).view.emb (ix2 p q))
  rw [pay_apply, ref_apply]
  have hj1 : ((((cfg2.win 4).blk t).view.emb (ix2 p q)) 1) = q := by
    apply Fin.ext
    show win2_4.index t (1 : Fin 2) * 16 + 1 * q.val = q.val
    omega
  rw [hj1]
  refine congrArg (fun f => Cert.Gcn.logSoftmaxAt f q) (funext fun q' => ?_)
  have h0 : (fun k : Fin 64 => iblk2 V c 0 t (ix2 p k))
      = fun k : Fin 64 => V c main_v58 (ix2 ((((cfg2.win 4).blk t).view.emb (ix2 p q)) 0) k) := by
    funext k
    show V c main_v58 (((cfg2.win 0).blk t).view.emb (ix2 p k)) = _
    refine congrArg (V c main_v58) (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 64 + 1 * k.val = k.val; omega
  have h1 : (fun k : Fin 64 => iblk2 V c 1 t (ix1 k)) = fun k : Fin 64 => V c main_arg5 (ix1 k) := by
    funext k
    show V c main_arg5 (((cfg2.win 1).blk t).view.emb (ix1 k)) = _
    refine congrArg (V c main_arg5) (funext fun a => Fin.ext ?_)
    match a with
    | ⟨0, _⟩ => show win2_1.index t (0 : Fin 1) * 64 + 1 * k.val = k.val; omega
  have h2 : (fun k : Fin 64 => iblk2 V c 2 t (ix2 k q')) = fun k : Fin 64 => V c main_arg6 (ix2 k q') := by
    funext k
    show V c main_arg6 (((cfg2.win 2).blk t).view.emb (ix2 k q')) = _
    refine congrArg (V c main_arg6) (funext fun a => Fin.ext ?_)
    match a with
    | ⟨0, _⟩ => show win2_2.index t (0 : Fin 2) * 64 + 1 * k.val = k.val; omega
    | ⟨1, _⟩ => show win2_2.index t (1 : Fin 2) * 16 + 1 * q'.val = q'.val; omega
  have h3 : iblk2 V c 3 t (ix1 q') = V c main_arg7 (ix1 q') := by
    show V c main_arg7 (((cfg2.win 3).blk t).view.emb (ix1 q')) = _
    refine congrArg (V c main_arg7) (funext fun a => Fin.ext ?_)
    match a with
    | ⟨0, _⟩ => show win2_3.index t (0 : Fin 1) * 16 + 1 * q'.val = q'.val; omega
  rw [h0, h1, h2, h3]

/-- An index of the result is in point `t`'s block iff each coordinate is in the block's range on its axis. -/
theorem mem_blk (t : Fin cfg2.N) (i : S100000x16.Idx) :
    i ∈ ((cfg2.win 4).blk t).view.set ↔ ∀ a : Fin 2, win2_4.index t a * S5000x16.size a ≤ (i a).val
      ∧ (i a).val < win2_4.index t a * S5000x16.size a + S5000x16.size a := by
  show i ∈ ((View.whole main_v59).slice (win2_4.rect t)).set ↔ _
  rw [View.set_slice_whole, Rect.mem_set_unit]
  exact Iff.rfl

/-- Row `r` is in the block of grid point `r / 5000`. -/
theorem cover (i : S100000x16.Idx) :
    ∃ t : Fin cfg2.N, (cfg2.win 4).flush t = true ∧ i ∈ ((cfg2.win 4).blk t).view.set := by
  have hi0 : (i 0).val < 100000 := (i 0).isLt
  have hi1 : (i 1).val < 16 := (i 1).isLt
  obtain ⟨t, ht⟩ := idx_onto ⟨(i 0).val / 5000, by omega⟩
  obtain ⟨e0, e1, e2, e3, e4, e5, e6, e7⟩ := idx_facts t
  have ht' : win2_4.index t (0 : Fin 2) = (i 0).val / 5000 := ht
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 16 ≤ (i 1).val ∧ (i 1).val < win2_4.index t (1 : Fin 2) * 16 + 16
    omega

/-- The array the region leaves: the reference's classifier of the arrays it found. -/
theorem final (c : Dev nD) :
    (dat2 V c).arrAt 4 cfg2.N
      = Cert.Gcn.logSoftmax (Cert.Gcn.scores (V c main_v58) (V c main_arg5) (V c main_arg6) (V c main_arg7)) :=
  (dat2 V c).arrAt_eq_of_cover 4 _ (fun t _ => flushed_eq V c t) cover

end Cert.Gcn.Region2

end
-- ==== Proof.HostStretches.lean ====
/-
  The three stretches of host operations of the kernel's program, each read at the buffers the next launch takes.

  The first stretch builds the graph quantities from the edge list: the source and target of every edge (the given edges
  followed by one self loop per node) and the symmetric weight of every edge. These are, operation for operation, the
  reference's own (the reference builds them once per layer; the kernel's program builds them once). The second and the
  third stretch aggregate the node features a launch left over the edges: the reference's aggregation of the same
  arrays, a change of float format between the gather and the product being the identity on the extended reals. No stretch
  writes an argument, and the later stretches do not write the graph quantities.
-/
import proofs.«127195_j27814208209785_2_alg».proof.Proof.Gen.KernelIdeal.Launch
import proofs.«127195_j27814208209785_2_alg».proof.Proof.RefCuts
import proofs.«127195_j27814208209785_2_alg».proof.Proof.LibConcat
import proofs.«127195_j27814208209785_2_alg».proof.Proof.FoldAll
import Idealize.ShloMosaic.Lib.StableHlo.Run

set_option maxRecDepth 16384

noncomputable section

namespace Cert.Gcn.Host

open Cert.KernelIdeal Cert.KernelIdeal.Gen Idealize.ShloMosaic Idealize.ShloMosaic.StableHlo Cert.LibConcat

/-! ## The graph quantities -/

/-- The source node of every edge. -/
theorem src_eq (W : Valuation τ sig (Elt Ideal)) :
    after (hostOps0 (F := Ideal)) W (Proc.devRef .tc main_v5)
      = Cert.ReferenceIdeal.ReadP.val_main_v6 (F := Ideal) (W (Proc.devRef .tc main_arg1)) := by
  fold_all <;> rfl

/-- The target node of every edge. -/
theorem dst_eq (W : Valuation τ sig (Elt Ideal)) :
    after (hostOps0 (F := Ideal)) W (Proc.devRef .tc main_v6)
      = Cert.ReferenceIdeal.ReadP.val_main_v7 (F := Ideal) (W (Proc.devRef .tc main_arg1)) := by
  fold_all <;> rfl

/-- The symmetric weight of every edge. -/
theorem nrm_eq (W : Valuation τ sig (Elt Ideal)) :
    after (hostOps0 (F := Ideal)) W (Proc.devRef .tc main_v28)
      = Cert.ReferenceIdeal.ReadP.val_main_v29 (F := Ideal) (W (Proc.devRef .tc main_arg1)) := by
  fold_all <;> rfl

/-! ## The two aggregations -/

/-- The second stretch leaves layer 1's aggregation of the first launch's result. -/
theorem agg1_eq (W : Valuation τ sig (Elt Ideal)) :
    after (hostOps1 (F := Ideal)) W (Proc.devRef .tc main_v43)
      = Cert.Gcn.agg128 (W (Proc.devRef .tc main_v29)) (W (Proc.devRef .tc main_v5)) (W (Proc.devRef .tc main_v6))
          (W (Proc.devRef .tc main_v28)) := by
  fold_all <;> rfl

/-- The third stretch leaves layer 2's aggregation of the second launch's result. -/
theorem agg2_eq (W : Valuation τ sig (Elt Ideal)) :
    after (hostOps2 (F := Ideal)) W (Proc.devRef .tc main_v58)
      = Cert.Gcn.agg64 (W (Proc.devRef .tc main_v44)) (W (Proc.devRef .tc main_v5)) (W (Proc.devRef .tc main_v6))
          (W (Proc.devRef .tc main_v28)) := by
  fold_all <;> rfl

/-! ## What each stretch leaves alone -/

theorem keep0_main_arg0 (W : Valuation τ sig (Elt Ideal)) :
    after (hostOps0 (F := Ideal)) W (Proc.devRef .tc main_arg0) = W (Proc.devRef .tc main_arg0) := by
  fold_all

theorem keep0_main_arg2 (W : Valuation τ sig (Elt Ideal)) :
    after (hostOps0 (F := Ideal)) W (Proc.devRef .tc main_arg2) = W (Proc.devRef .tc main_arg2) := by
  fold_all

theorem keep0_main_arg3 (W : Valuation τ sig (Elt Ideal)) :
    after (hostOps0 (F := Ideal)) W (Proc.devRef .tc main_arg3) = W (Proc.devRef .tc main_arg3) := by
  fold_all

theorem keep0_main_arg4 (W : Valuation τ sig (Elt Ideal)) :
    after (hostOps0 (F := Ideal)) W (Proc.devRef .tc main_arg4) = W (Proc.devRef .tc main_arg4) := by
  fold_all

theorem keep0_main_arg5 (W : Valuation τ sig (Elt Ideal)) :
    after (hostOps0 (F := Ideal)) W (Proc.devRef .tc main_arg5) = W (Proc.devRef .tc main_arg5) := by
  fold_all

theorem keep0_main_arg6 (W : Valuation τ sig (Elt Ideal)) :
    after (hostOps0 (F := Ideal)) W (Proc.devRef .tc main_arg6) = W (Proc.devRef .tc main_arg6) := by
  fold_all

theorem keep0_main_arg7 (W : Valuation τ sig (Elt Ideal)) :
    after (hostOps0 (F := Ideal)) W (Proc.devRef .tc main_arg7) = W (Proc.devRef .tc main_arg7) := by
  fold_all

theorem keep1_main_v5 (W : Valuation τ sig (Elt Ideal)) :
    after (hostOps1 (F := Ideal)) W (Proc.devRef .tc main_v5) = W (Proc.devRef .tc main_v5) := by
  fold_all

theorem keep1_main_v6 (W : Valuation τ sig (Elt Ideal)) :
    after (hostOps1 (F := Ideal)) W (Proc.devRef .tc main_v6) = W (Proc.devRef .tc main_v6) := by
  fold_all

theorem keep1_main_v28 (W : Valuation τ sig (Elt Ideal)) :
    after (hostOps1 (F := Ideal)) W (Proc.devRef .tc main_v28) = W (Proc.devRef .tc main_v28) := by
  fold_all

theorem keep1_main_arg3 (W : Valuation τ sig (Elt Ideal)) :
    after (hostOps1 (F := Ideal)) W (Proc.devRef .tc main_arg3) = W (Proc.devRef .tc main_arg3) := by
  fold_all

theorem keep1_main_arg4 (W : Valuation τ sig (Elt Ideal)) :
    after (hostOps1 (F := Ideal)) W (Proc.devRef .tc main_arg4) = W (Proc.devRef .tc main_arg4) := by
  fold_all

theorem keep1_main_arg5 (W : Valuation τ sig (Elt Ideal)) :
    after (hostOps1 (F := Ideal)) W (Proc.devRef .tc main_arg5) = W (Proc.devRef .tc main_arg5) := by
  fold_all

theorem keep1_main_arg6 (W : Valuation τ sig (Elt Ideal)) :
    after (hostOps1 (F := Ideal)) W (Proc.devRef .tc main_arg6) = W (Proc.devRef .tc main_arg6) := by
  fold_all

theorem keep1_main_arg7 (W : Valuation τ sig (Elt Ideal)) :
    after (hostOps1 (F := Ideal)) W (Proc.devRef .tc main_arg7) = W (Proc.devRef .tc main_arg7) := by
  fold_all

theorem keep2_main_v5 (W : Valuation τ sig (Elt Ideal)) :
    after (hostOps2 (F := Ideal)) W (Proc.devRef .tc main_v5) = W (Proc.devRef .tc main_v5) := by
  fold_all

theorem keep2_main_v6 (W : Valuation τ sig (Elt Ideal)) :
    after (hostOps2 (F := Ideal)) W (Proc.devRef .tc main_v6) = W (Proc.devRef .tc main_v6) := by
  fold_all

theorem keep2_main_v28 (W : Valuation τ sig (Elt Ideal)) :
    after (hostOps2 (F := Ideal)) W (Proc.devRef .tc main_v28) = W (Proc.devRef .tc main_v28) := by
  fold_all

theorem keep2_main_arg5 (W : Valuation τ sig (Elt Ideal)) :
    after (hostOps2 (F := Ideal)) W (Proc.devRef .tc main_arg5) = W (Proc.devRef .tc main_arg5) := by
  fold_all

theorem keep2_main_arg6 (W : Valuation τ sig (Elt Ideal)) :
    after (hostOps2 (F := Ideal)) W (Proc.devRef .tc main_arg6) = W (Proc.devRef .tc main_arg6) := by
  fold_all

theorem keep2_main_arg7 (W : Valuation τ sig (Elt Ideal)) :
    after (hostOps2 (F := Ideal)) W (Proc.devRef .tc main_arg7) = W (Proc.devRef .tc main_arg7) := by
  fold_all

end Cert.Gcn.Host

end
-- ==== Proof.KernelValue.lean ====
/-
  The idealized kernel's result as one function of its arguments.

  The buffers' contents at the boundaries of @main are followed from the launch to the return: the first stretch's graph
  quantities stay where they are through the launches and the later stretches; each launch leaves its dense stage of the
  arrays it found; each later stretch leaves its aggregation of the launch's result. Composed, the result buffer ends at
  the classifier of the second aggregation of the second dense stage of the first aggregation of `x · W₁`: the
  reference's own composition.
-/
import proofs.«127195_j27814208209785_2_alg».proof.Proof.KernelRun
import proofs.«127195_j27814208209785_2_alg».proof.Proof.Region0
import proofs.«127195_j27814208209785_2_alg».proof.Proof.Region1
import proofs.«127195_j27814208209785_2_alg».proof.Proof.Region2
import proofs.«127195_j27814208209785_2_alg».proof.Proof.HostStretches

set_option maxRecDepth 16384

noncomputable section

namespace Cert.Gcn.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The graph quantities at every boundary -/

theorem src1 (c : Dev nD) : W1 m ρ c (Proc.devRef .tc main_v5) = Cert.ReferenceIdeal.ReadP.val_main_v6 (F := Ideal) (m ((c : Thread nD τ).loc main_arg1)) :=
  Host.src_eq (W0 m ρ c)
theorem src2 (c : Dev nD) : W2 m ρ c (Proc.devRef .tc main_v5) = Cert.ReferenceIdeal.ReadP.val_main_v6 (F := Ideal) (m ((c : Thread nD τ).loc main_arg1)) :=
  (W2_of_ne m ρ c main_v5 (by decide)).trans (src1 m ρ c)
theorem src3 (c : Dev nD) : W3 m ρ c (Proc.devRef .tc main_v5) = Cert.ReferenceIdeal.ReadP.val_main_v6 (F := Ideal) (m ((c : Thread nD τ).loc main_arg1)) :=
  (Host.keep1_main_v5 (W2 m ρ c)).trans (src2 m ρ c)
theorem src4 (c : Dev nD) : W4 m ρ c (Proc.devRef .tc main_v5) = Cert.ReferenceIdeal.ReadP.val_main_v6 (F := Ideal) (m ((c : Thread nD τ).loc main_arg1)) :=
  (W4_of_ne m ρ c main_v5 (by decide)).trans (src3 m ρ c)

theorem dst1 (c : Dev nD) : W1 m ρ c (Proc.devRef .tc main_v6) = Cert.ReferenceIdeal.ReadP.val_main_v7 (F := Ideal) (m ((c : Thread nD τ).loc main_arg1)) :=
  Host.dst_eq (W0 m ρ c)
theorem dst2 (c : Dev nD) : W2 m ρ c (Proc.devRef .tc main_v6) = Cert.ReferenceIdeal.ReadP.val_main_v7 (F := Ideal) (m ((c : Thread nD τ).loc main_arg1)) :=
  (W2_of_ne m ρ c main_v6 (by decide)).trans (dst1 m ρ c)
theorem dst3 (c : Dev nD) : W3 m ρ c (Proc.devRef .tc main_v6) = Cert.ReferenceIdeal.ReadP.val_main_v7 (F := Ideal) (m ((c : Thread nD τ).loc main_arg1)) :=
  (Host.keep1_main_v6 (W2 m ρ c)).trans (dst2 m ρ c)
theorem dst4 (c : Dev nD) : W4 m ρ c (Proc.devRef .tc main_v6) = Cert.ReferenceIdeal.ReadP.val_main_v7 (F := Ideal) (m ((c : Thread nD τ).loc main_arg1)) :=
  (W4_of_ne m ρ c main_v6 (by decide)).trans (dst3 m ρ c)

theorem nrm1 (c : Dev nD) : W1 m ρ c (Proc.devRef .tc main_v28) = Cert.ReferenceIdeal.ReadP.val_main_v29 (F := Ideal) (m ((c : Thread nD τ).loc main_arg1)) :=
  Host.nrm_eq (W0 m ρ c)
theorem nrm2 (c : Dev nD) : W2 m ρ c (Proc.devRef .tc main_v28) = Cert.ReferenceIdeal.ReadP.val_main_v29 (F := Ideal) (m ((c : Thread nD τ).loc main_arg1)) :=
  (W2_of_ne m ρ c main_v28 (by decide)).trans (nrm1 m ρ c)
theorem nrm3 (c : Dev nD) : W3 m ρ c (Proc.devRef .tc main_v28) = Cert.ReferenceIdeal.ReadP.val_main_v29 (F := Ideal) (m ((c : Thread nD τ).loc main_arg1)) :=
  (Host.keep1_main_v28 (W2 m ρ c)).trans (nrm2 m ρ c)
theorem nrm4 (c : Dev nD) : W4 m ρ c (Proc.devRef .tc main_v28) = Cert.ReferenceIdeal.ReadP.val_main_v29 (F := Ideal) (m ((c : Thread nD τ).loc main_arg1)) :=
  (W4_of_ne m ρ c main_v28 (by decide)).trans (nrm3 m ρ c)

/-! ## The arguments at the boundaries where a launch reads them -/

theorem arg0_1 (c : Dev nD) : W1 m ρ c (Proc.devRef .tc main_arg0) = m ((c : Thread nD τ).loc main_arg0) :=
  Host.keep0_main_arg0 (W0 m ρ c)
theorem arg2_1 (c : Dev nD) : W1 m ρ c (Proc.devRef .tc main_arg2) = m ((c : Thread nD τ).loc main_arg2) :=
  Host.keep0_main_arg2 (W0 m ρ c)
theorem arg3_1 (c : Dev nD) : W1 m ρ c (Proc.devRef .tc main_arg3) = m ((c : Thread nD τ).loc main_arg3) :=
  Host.keep0_main_arg3 (W0 m ρ c)
theorem arg3_3 (c : Dev nD) : W3 m ρ c (Proc.devRef .tc main_arg3) = m ((c : Thread nD τ).loc main_arg3) :=
  (Host.keep1_main_arg3 (W2 m ρ c)).trans ((W2_of_ne m ρ c main_arg3 (by decide)).trans (arg3_1 m ρ c))
theorem arg4_1 (c : Dev nD) : W1 m ρ c (Proc.devRef .tc main_arg4) = m ((c : Thread nD τ).loc main_arg4) :=
  Host.keep0_main_arg4 (W0 m ρ c)
theorem arg4_3 (c : Dev nD) : W3 m ρ c (Proc.devRef .tc main_arg4) = m ((c : Thread nD τ).loc main_arg4) :=
  (Host.keep1_main_arg4 (W2 m ρ c)).trans ((W2_of_ne m ρ c main_arg4 (by decide)).trans (arg4_1 m ρ c))
theorem arg5_1 (c : Dev nD) : W1 m ρ c (Proc.devRef .tc main_arg5) = m ((c : Thread nD τ).loc main_arg5) :=
  Host.keep0_main_arg5 (W0 m ρ c)
theorem arg5_3 (c : Dev nD) : W3 m ρ c (Proc.devRef .tc main_arg5) = m ((c : Thread nD τ).loc main_arg5) :=
  (Host.keep1_main_arg5 (W2 m ρ c)).trans ((W2_of_ne m ρ c main_arg5 (by decide)).trans (arg5_1 m ρ c))
theorem arg5_5 (c : Dev nD) : W5 m ρ c (Proc.devRef .tc main_arg5) = m ((c : Thread nD τ).loc main_arg5) :=
  (Host.keep2_main_arg5 (W4 m ρ c)).trans ((W4_of_ne m ρ c main_arg5 (by decide)).trans (arg5_3 m ρ c))
theorem arg6_1 (c : Dev nD) : W1 m ρ c (Proc.devRef .tc main_arg6) = m ((c : Thread nD τ).loc main_arg6) :=
  Host.keep0_main_arg6 (W0 m ρ c)
theorem arg6_3 (c : Dev nD) : W3 m ρ c (Proc.devRef .tc main_arg6) = m ((c : Thread nD τ).loc main_arg6) :=
  (Host.keep1_main_arg6 (W2 m ρ c)).trans ((W2_of_ne m ρ c main_arg6 (by decide)).trans (arg6_1 m ρ c))
theorem arg6_5 (c : Dev nD) : W5 m ρ c (Proc.devRef .tc main_arg6) = m ((c : Thread nD τ).loc main_arg6) :=
  (Host.keep2_main_arg6 (W4 m ρ c)).trans ((W4_of_ne m ρ c main_arg6 (by decide)).trans (arg6_3 m ρ c))
theorem arg7_1 (c : Dev nD) : W1 m ρ c (Proc.devRef .tc main_arg7) = m ((c : Thread nD τ).loc main_arg7) :=
  Host.keep0_main_arg7 (W0 m ρ c)
theorem arg7_3 (c : Dev nD) : W3 m ρ c (Proc.devRef .tc main_arg7) = m ((c : Thread nD τ).loc main_arg7) :=
  (Host.keep1_main_arg7 (W2 m ρ c)).trans ((W2_of_ne m ρ c main_arg7 (by decide)).trans (arg7_1 m ρ c))
theorem arg7_5 (c : Dev nD) : W5 m ρ c (Proc.devRef .tc main_arg7) = m ((c : Thread nD τ).loc main_arg7) :=
  (Host.keep2_main_arg7 (W4 m ρ c)).trans ((W4_of_ne m ρ c main_arg7 (by decide)).trans (arg7_3 m ρ c))

/-! ## The launches' results and the aggregations, in order -/

/-- After the first launch: `x · W₁`. -/
theorem dense1_out (c : Dev nD) : W2 m ρ c (Proc.devRef .tc main_v29) = (Cert.ReferenceIdeal.ReadP.val_main_v4 (F := Ideal) (m ((c : Thread nD τ).loc main_arg0)) (m ((c : Thread nD τ).loc main_arg2))) := by
  refine (W2_arr m ρ c 2).trans ((Cert.Gcn.Region0.final (V1 m ρ) c).trans ?_)
  show Cert.ReferenceIdeal.ReadP.val_main_v4 (F := Ideal) (W1 m ρ c (Proc.devRef .tc main_arg0)) (W1 m ρ c (Proc.devRef .tc main_arg2)) = _
  rw [arg0_1, arg2_1]

/-- At the second launch's entry: layer 1's aggregation of it. -/
theorem agg1_out (c : Dev nD) : W3 m ρ c (Proc.devRef .tc main_v43) = (Cert.Gcn.agg128 (Cert.ReferenceIdeal.ReadP.val_main_v4 (F := Ideal) (m ((c : Thread nD τ).loc main_arg0)) (m ((c : Thread nD τ).loc main_arg2))) (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v29 (F := Ideal) (m ((c : Thread nD τ).loc main_arg1)))) := by
  refine (Host.agg1_eq (W2 m ρ c)).trans ?_
  rw [dense1_out, src2, dst2, nrm2]

/-- After the second launch: the second dense stage of that. -/
theorem dense2_out (c : Dev nD) : W4 m ρ c (Proc.devRef .tc main_v44) = (Cert.Gcn.dense2 (Cert.Gcn.agg128 (Cert.ReferenceIdeal.ReadP.val_main_v4 (F := Ideal) (m ((c : Thread nD τ).loc main_arg0)) (m ((c : Thread nD τ).loc main_arg2))) (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v29 (F := Ideal) (m ((c : Thread nD τ).loc main_arg1)))) (m ((c : Thread nD τ).loc main_arg3)) (m ((c : Thread nD τ).loc main_arg4))) := by
  refine (W4_arr m ρ c 3).trans ((Cert.Gcn.Region1.final (V3 m ρ) c).trans ?_)
  show Cert.Gcn.dense2 (W3 m ρ c (Proc.devRef .tc main_v43)) (W3 m ρ c (Proc.devRef .tc main_arg3)) (W3 m ρ c (Proc.devRef .tc main_arg4)) = _
  rw [agg1_out, arg3_3, arg4_3]

/-- At the third launch's entry: layer 2's aggregation of it. -/
theorem agg2_out (c : Dev nD) : W5 m ρ c (Proc.devRef .tc main_v58) = (Cert.Gcn.agg64 (Cert.Gcn.dense2 (Cert.Gcn.agg128 (Cert.ReferenceIdeal.ReadP.val_main_v4 (F := Ideal) (m ((c : Thread nD τ).loc main_arg0)) (m ((c : Thread nD τ).loc main_arg2))) (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v29 (F := Ideal) (m ((c : Thread nD τ).loc main_arg1)))) (m ((c : Thread nD τ).loc main_arg3)) (m ((c : Thread nD τ).loc main_arg4))) (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v29 (F := Ideal) (m ((c : Thread nD τ).loc main_arg1)))) := by
  refine (Host.agg2_eq (W4 m ρ c)).trans ?_
  rw [dense2_out, src4, dst4, nrm4]

/-- After the third launch: the classifier of that, the program's result. -/
theorem result_out (c : Dev nD) : W6 m ρ c (Proc.devRef .tc main_v59) = Cert.Gcn.logSoftmax (Cert.Gcn.scores (Cert.Gcn.agg64 (Cert.Gcn.dense2 (Cert.Gcn.agg128 (Cert.ReferenceIdeal.ReadP.val_main_v4 (F := Ideal) (m ((c : Thread nD τ).loc main_arg0)) (m ((c : Thread nD τ).loc main_arg2))) (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v29 (F := Ideal) (m ((c : Thread nD τ).loc main_arg1)))) (m ((c : Thread nD τ).loc main_arg3)) (m ((c : Thread nD τ).loc main_arg4))) (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v29 (F := Ideal) (m ((c : Thread nD τ).loc main_arg1)))) (m ((c : Thread nD τ).loc main_arg5)) (m ((c : Thread nD τ).loc main_arg6)) (m ((c : Thread nD τ).loc main_arg7))) := by
  refine (W6_arr m ρ c 4).trans ((Cert.Gcn.Region2.final (V5 m ρ) c).trans ?_)
  show Cert.Gcn.logSoftmax (Cert.Gcn.scores (W5 m ρ c (Proc.devRef .tc main_v58)) (W5 m ρ c (Proc.devRef .tc main_arg5))
    (W5 m ρ c (Proc.devRef .tc main_arg6)) (W5 m ρ c (Proc.devRef .tc main_arg7))) = _
  rw [agg2_out, arg5_5, arg6_5, arg7_5]

/-- The result is the reference's function of the arguments. -/
theorem result_eq_ref (c : Dev nD) :
    W6 m ρ c (Proc.devRef .tc main_v59)
      = Cert.ReferenceIdeal.ReadP.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (result_out m ρ c).trans (Cert.Gcn.val_main_v94_eq_net _ _ _ _ _ _ _ _).symm

/-- The idealized kernel's run: the result at the reference's function of the arguments, the arguments unchanged. -/
theorem run : θ_run defs (onTc (τ := τ) (main (F := Ideal))) ⟨m, fun _ => 0, ρ⟩ (fun r => ∀ c : Dev nD,
      r.2.mem ((c.tc : Thread nD τ).loc main_v59)
        = Cert.ReferenceIdeal.ReadP.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq_ref m ρ c), (h c).2⟩) (Cert.Gcn.KernelRun.run_result m ρ)

end Cert.Gcn.KernelValue

end
-- ==== Proof.lean ====
/-
  A two-layer graph convolution network with a log-softmax classifier, on a graph of 100000 nodes and 1600000 edges: the
  kernel's program against its jnp reference, as extended reals.

  Both programs compute, with `s`, `d` the source and target of every edge (the given edges, then a self loop per node)
  and `nrm e = rsqrt (max deg (s e) 1) · rsqrt (max deg (d e) 1)` the symmetric weight of edge `e`,

      h₁ = agg (x · W₁),   h₂ = agg (relu (h₁ + b₁) · W₂),   out = logSoftmax (relu (h₂ + b₂) · W_fc + b_fc)

  where `agg h` sums the rows `h[s e] · nrm e` into row `d e`. The kernel's program runs the three dense stages on the
  chip (ten, ten and twenty row blocks; the matrix unit's zero accumulator and the changes of float format around it
  contribute nothing on the extended reals) and the graph quantities and the two aggregations as host operations
  between the launches; the reference runs everything as host operations and builds the graph quantities once per layer.
  Operation for operation the two are one composition, so no algebraic law beyond `max (−∞) y = y` and `0 + y = y` is
  needed, and the precondition is not used. `KernelValue.run` is the kernel's run with its result at the reference's
  function of the arguments; the reference's run has its result at the same function.
-/
import proofs.«127195_j27814208209785_2_alg».proof.Defs
import proofs.«127195_j27814208209785_2_alg».proof.Proof.Gen.Kernel
import proofs.«127195_j27814208209785_2_alg».proof.Proof.Gen.Kernel.Skeleton
import proofs.«127195_j27814208209785_2_alg».proof.Proof.Gen.Kernel.Launch
import proofs.«127195_j27814208209785_2_alg».proof.Proof.Gen.Kernel.Points
import proofs.«127195_j27814208209785_2_alg».proof.Proof.Gen.Kernel.Frame
import proofs.«127195_j27814208209785_2_alg».proof.Proof.Gen.KernelIdeal
import proofs.«127195_j27814208209785_2_alg».proof.Proof.Gen.KernelIdeal.Skeleton
import proofs.«127195_j27814208209785_2_alg».proof.Proof.Gen.KernelIdeal.Launch
import proofs.«127195_j27814208209785_2_alg».proof.Proof.Gen.KernelIdeal.Points
import proofs.«127195_j27814208209785_2_alg».proof.Proof.Gen.KernelIdeal.Frame
import proofs.«127195_j27814208209785_2_alg».proof.Proof.Gen.ReferenceIdeal
import proofs.«127195_j27814208209785_2_alg».proof.Proof.Gen.Pre_finite_inputs
import proofs.«127195_j27814208209785_2_alg».proof.Proof.RefRunP
import proofs.«127195_j27814208209785_2_alg».proof.Proof.RefReadP
import proofs.«127195_j27814208209785_2_alg».proof.Proof.RefRun
import proofs.«127195_j27814208209785_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.Gcn.RefRun.run m ρ)

/-- The idealization rewrote nothing. -/
theorem preserves : Cert.preserves_Kernel_KernelIdeal := trivial

/-- From memories agreeing on the arguments both programs end with their results at one function of the arguments. -/
theorem algebraic : Cert.algebraic_KernelIdeal_ReferenceIdeal := by
  intro m ρ m' ρ' _ hagree
  refine ⟨fun c => Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.Gcn.KernelValue.run m ρ, ?_⟩
  refine (θ_run Cert.ReferenceIdeal.defs _ _).mono (fun _ h c => ⟨?_, (h c).2⟩)
    (Cert.Gcn.RefRun.run m' ρ')
  rw [(h c).1, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
